-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S128x10 : Shape := ⟨2, ![128, 10]⟩
abbrev S10x10 : Shape := ⟨2, ![10, 10]⟩
abbrev S20x10 : Shape := ⟨2, ![20, 10]⟩
abbrev S10x64 : Shape := ⟨2, ![10, 64]⟩
abbrev S64x64 : Shape := ⟨2, ![64, 64]⟩
abbrev S1250000 : Shape := ⟨1, ![1250000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S10x10 : S_.BroadcastsInDim S10x10 (![] : Fin 0 → Fin S10x10.rank)
  reducesTo_S10x10_S_d0_1 : S10x10.ReducesTo [0, 1] S_
  bcast_S_S20x10 : S_.BroadcastsInDim S20x10 (![] : Fin 0 → Fin S20x10.rank)
  reducesTo_S20x10_S_d0_1 : S20x10.ReducesTo [0, 1] S_
  bcast_S_S10x64 : S_.BroadcastsInDim S10x64 (![] : Fin 0 → Fin S10x64.rank)
  reducesTo_S10x64_S_d0_1 : S10x64.ReducesTo [0, 1] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S10x64 .f32) (main_arg8 : FVec F S64x64 .f32) (main_v33 : IVec S_ 1) : IVec S_ 1 :=
  let main_v34 : FVec F S10x64 .f32 := Host.absf main_arg7
  let main_cst_12 : FVec F S_ .f32 := constant S_ .f32 0x7F800000#32
  let main_v35 : FVec F S10x64 .f32 := broadcastInDim S10x64 ![] bcast_S_S10x64 main_cst_12
  let main_v36 : IVec S10x64 1 := cmpf .olt main_v34 main_v35
  let main_c_13 : IVec S_ 1 := constantI S_ 1 1#1
  let main_v37 : IVec S_ 1 := (fun x v => Host.reduce IntOp.andi x v reducesTo_S10x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg4 : FVec F S10x10 .f32) (main_arg5 : FVec F S20x10 .f32) (main_arg6 : FVec F S10x10 .f32) (main_arg7 : FVec F S10x64 .f32) (main_arg8 : FVec F S64x64 .f32) (main_v13 : IVec S_ 1) (main_v16 : IVec S20x10 1) : IVec S_ 1 :=
  let main_c_5 : IVec S_ 1 := constantI S_ 1 1#1
  let main_v17 : IVec S_ 1 := (fun x v => Host.reduce IntOp.andi x v reducesTo_S20x10_S_d0_1 h_S_) main_v16 main_c_5
  let main_v18 : IVec S_ 1 := andi main_v13 main_v17
  let main_v19 : FVec F S10x10 .f32 := Host.absf main_arg4
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S20x10 .f32 := Host.absf main_arg5
  let main_cst_8 : FVec F S_ .f32 := constant S_ .f32 0x7F800000#32
  let main_v25 : FVec F S20x10 .f32 := broadcastInDim S20x10 ![] bcast_S_S20x10 main_cst_8
  let main_v26 : IVec S20x10 1 := cmpf .olt main_v24 main_v25
  let main_c_9 : IVec S_ 1 := constantI S_ 1 1#1
  let main_v27 : IVec S_ 1 := (fun x v => Host.reduce IntOp.andi x v reducesTo_S20x10_S_d0_1 h_S_) main_v26 main_c_9
  let main_v28 : IVec S_ 1 := andi main_v23 main_v27
  let main_v29 : FVec F S10x10 .f32 := Host.absf main_arg6
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg7 main_arg8 main_v33

def fn {F : FTy → Type} [FloatOps F] (main_arg0 : FVec F S100000x64 .f32) (main_arg1 : FVec F S128x10 .f32) (main_arg2 : FVec F S10x10 .f32) (main_arg3 : FVec F S20x10 .f32) (main_arg4 : FVec F S10x10 .f32) (main_arg5 : FVec F S20x10 .f32) (main_arg6 : FVec F S10x10 .f32) (main_arg7 : FVec F S10x64 .f32) (main_arg8 : FVec F S64x64 .f32) (main_arg9 : IVec S1250000 32) (main_arg10 : IVec S1250000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S10x10 .f32 := Host.absf main_arg2
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  let main_v14 : FVec F S20x10 .f32 := Host.absf main_arg3
  let main_cst_4 : FVec F S_ .f32 := constant S_ .f32 0x7F800000#32
  let main_v15 : FVec F S20x10 .f32 := broadcastInDim S20x10 ![] bcast_S_S20x10 main_cst_4
  let main_v16 : IVec S20x10 1 := cmpf .olt main_v14 main_v15
  fn_part1 (F := F) main_arg4 main_arg5 main_arg6 main_arg7 main_arg8 main_v13 main_v16
-- ==== Kernel.lean ====
abbrev S100000x64 : Shape := ⟨2, ![100000, 64]⟩
abbrev S128x10 : Shape := ⟨2, ![128, 10]⟩
abbrev S10x10 : Shape := ⟨2, ![10, 10]⟩
abbrev S20x10 : Shape := ⟨2, ![20, 10]⟩
abbrev S10x64 : Shape := ⟨2, ![10, 64]⟩
abbrev S64x64 : Shape := ⟨2, ![64, 64]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1250000x128 : Shape := ⟨2, ![1250000, 128]⟩
abbrev S1250000x10 : Shape := ⟨2, ![1250000, 10]⟩
abbrev S5000x128 : Shape := ⟨2, ![5000, 128]⟩
abbrev S5000x10 : Shape := ⟨2, ![5000, 10]⟩
abbrev S100000x10 : Shape := ⟨2, ![100000, 10]⟩
abbrev S1250000x20 : Shape := ⟨2, ![1250000, 20]⟩
abbrev S5000x20 : Shape := ⟨2, ![5000, 20]⟩
abbrev S5000x64 : Shape := ⟨2, ![5000, 64]⟩

abbrev nBuf : Space → Nat
  | .hbm => 94
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S128x10, .f32⟩
  | .hbm, ⟨2, _⟩ => ⟨S10x10, .f32⟩
  | .hbm, ⟨3, _⟩ => ⟨S20x10, .f32⟩
  | .hbm, ⟨4, _⟩ => ⟨S10x10, .f32⟩
  | .hbm, ⟨5, _⟩ => ⟨S20x10, .f32⟩
  | .hbm, ⟨6, _⟩ => ⟨S10x10, .f32⟩
  | .hbm, ⟨7, _⟩ => ⟨S10x64, .f32⟩
  | .hbm, ⟨8, _⟩ => ⟨S64x64, .f32⟩
  | .hbm, ⟨9, _⟩ => ⟨S1250000, .i32⟩
  | .hbm, ⟨10, _⟩ => ⟨S1250000, .i32⟩
  | .hbm, ⟨11, _⟩ => ⟨S_, .i32⟩
  | .hbm, ⟨12, _⟩ => ⟨S1250000, .i32⟩
  | .hbm, ⟨13, _⟩ => ⟨S1250000, .i1⟩
  | .hbm, ⟨14, _⟩ => ⟨S_, .i32⟩
  | .hbm, ⟨15, _⟩ => ⟨S1250000, .i32⟩
  | .hbm, ⟨16, _⟩ => ⟨S1250000, .i32⟩
  | .hbm, ⟨17, _⟩ => ⟨S1250000, .i32⟩
  | .hbm, ⟨18, _⟩ => ⟨S1250000x1, .i32⟩
  | .hbm, ⟨19, _⟩ => ⟨S1250000x64, .f32⟩
  | .hbm, ⟨20, _⟩ => ⟨S_, .i32⟩
  | .hbm, ⟨21, _⟩ => ⟨S1250000, .i32⟩
  | .hbm, ⟨22, _⟩ => ⟨S1250000, .i1⟩
  | .hbm, ⟨23, _⟩ => ⟨S_, .i32⟩
  | .hbm, ⟨24, _⟩ => ⟨S1250000, .i32⟩
  | .hbm, ⟨25, _⟩ => ⟨S1250000, .i32⟩
  | .hbm, ⟨26, _⟩ => ⟨S1250000, .i32⟩
  | .hbm, ⟨27, _⟩ => ⟨S1250000x1, .i32⟩
  | .hbm, ⟨28, _⟩ => ⟨S1250000x64, .f32⟩
  | .hbm, ⟨29, _⟩ => ⟨S1250000x128, .f32⟩
  | .hbm, ⟨30, _⟩ => ⟨S1250000x10, .f32⟩
  | .hbm, ⟨31, _⟩ => ⟨S_, .f32⟩
  | .hbm, ⟨32, _⟩ => ⟨S100000x10, .f32⟩
  | .hbm, ⟨33, _⟩ => ⟨S1250000x1, .i32⟩
  | .hbm, ⟨34, _⟩ => ⟨S100000x10, .f32⟩
  | .hbm, ⟨35, _⟩ => ⟨S_, .f32⟩
  | .hbm, ⟨36, _⟩ => ⟨S100000x10, .f32⟩
  | .hbm, ⟨37, _⟩ => ⟨S100000x10, .f32⟩
  | .hbm, ⟨38, _⟩ => ⟨S_, .i32⟩
  | .hbm, ⟨39, _⟩ => ⟨S1250000, .i32⟩
  | .hbm, ⟨40, _⟩ => ⟨S1250000, .i1⟩
  | .hbm, ⟨41, _⟩ => ⟨S_, .i32⟩
  | .hbm, ⟨42, _⟩ => ⟨S1250000, .i32⟩
  | .hbm, ⟨43, _⟩ => ⟨S1250000, .i32⟩
  | .hbm, ⟨44, _⟩ => ⟨S1250000, .i32⟩
  | .hbm, ⟨45, _⟩ => ⟨S1250000x1, .i32⟩
  | .hbm, ⟨46, _⟩ => ⟨S1250000x10, .f32⟩
  | .hbm, ⟨47, _⟩ => ⟨S_, .i32⟩
  | .hbm, ⟨48, _⟩ => ⟨S1250000, .i32⟩
  | .hbm, ⟨49, _⟩ => ⟨S1250000, .i1⟩
  | .hbm, ⟨50, _⟩ => ⟨S_, .i32⟩
  | .hbm, ⟨51, _⟩ => ⟨S1250000, .i32⟩
  | .hbm, ⟨52, _⟩ => ⟨S1250000, .i32⟩
  | .hbm, ⟨53, _⟩ => ⟨S1250000, .i32⟩
  | .hbm, ⟨54, _⟩ => ⟨S1250000x1, .i32⟩
  | .hbm, ⟨55, _⟩ => ⟨S1250000x10, .f32⟩
  | .hbm, ⟨56, _⟩ => ⟨S1250000x20, .f32⟩
  | .hbm, ⟨57, _⟩ => ⟨S1250000x10, .f32⟩
  | .hbm, ⟨58, _⟩ => ⟨S_, .f32⟩
  | .hbm, ⟨59, _⟩ => ⟨S100000x10, .f32⟩
  | .hbm, ⟨60, _⟩ => ⟨S1250000x1, .i32⟩
  | .hbm, ⟨61, _⟩ => ⟨S100000x10, .f32⟩
  | .hbm, ⟨62, _⟩ => ⟨S_, .f32⟩
  | .hbm, ⟨63, _⟩ => ⟨S100000x10, .f32⟩
  | .hbm, ⟨64, _⟩ => ⟨S100000x10, .f32⟩
  | .hbm, ⟨65, _⟩ => ⟨S_, .i32⟩
  | .hbm, ⟨66, _⟩ => ⟨S1250000, .i32⟩
  | .hbm, ⟨67, _⟩ => ⟨S1250000, .i1⟩
  | .hbm, ⟨68, _⟩ => ⟨S_, .i32⟩
  | .hbm, ⟨69, _⟩ => ⟨S1250000, .i32⟩
  | .hbm, ⟨70, _⟩ => ⟨S1250000, .i32⟩
  | .hbm, ⟨71, _⟩ => ⟨S1250000, .i32⟩
  | .hbm, ⟨72, _⟩ => ⟨S1250000x1, .i32⟩
  | .hbm, ⟨73, _⟩ => ⟨S1250000x10, .f32⟩
  | .hbm, ⟨74, _⟩ => ⟨S_, .i32⟩
  | .hbm, ⟨75, _⟩ => ⟨S1250000, .i32⟩
  | .hbm, ⟨76, _⟩ => ⟨S1250000, .i1⟩
  | .hbm, ⟨77, _⟩ => ⟨S_, .i32⟩
  | .hbm, ⟨78, _⟩ => ⟨S1250000, .i32⟩
  | .hbm, ⟨79, _⟩ => ⟨S1250000, .i32⟩
  | .hbm, ⟨80, _⟩ => ⟨S1250000, .i32⟩
  | .hbm, ⟨81, _⟩ => ⟨S1250000x1, .i32⟩
  | .hbm, ⟨82, _⟩ => ⟨S1250000x10, .f32⟩
  | .hbm, ⟨83, _⟩ => ⟨S1250000x20, .f32⟩
  | .hbm, ⟨84, _⟩ => ⟨S1250000x10, .f32⟩
  | .hbm, ⟨85, _⟩ => ⟨S_, .f32⟩
  | .hbm, ⟨86, _⟩ => ⟨S100000x10, .f32⟩
  | .hbm, ⟨87, _⟩ => ⟨S1250000x1, .i32⟩
  | .hbm, ⟨88, _⟩ => ⟨S100000x10, .f32⟩
  | .hbm, ⟨89, _⟩ => ⟨S_, .f32⟩
  | .hbm, ⟨90, _⟩ => ⟨S100000x10, .f32⟩
  | .hbm, ⟨91, _⟩ => ⟨S100000x10, .f32⟩
  | .hbm, ⟨92, _⟩ => ⟨S100000x64, .f32⟩
  | .hbm, ⟨93, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x10, .f32⟩
  | .local _ .vmem, ⟨3, _⟩ => ⟨S10x10, .f32⟩
  | .local _ .vmem, ⟨4, _⟩ => ⟨S5000x10, .f32⟩
  | .local _ .vmem, ⟨5, _⟩ => ⟨S5000x10, .f32⟩
  | .local _ .vmem, ⟨6, _⟩ => ⟨S5000x20, .f32⟩
  | .local _ .vmem, ⟨7, _⟩ => ⟨S5000x20, .f32⟩
  | .local _ .vmem, ⟨8, _⟩ => ⟨S20x10, .f32⟩
  | .local _ .vmem, ⟨9, _⟩ => ⟨S10x10, .f32⟩
  | .local _ .vmem, ⟨10, _⟩ => ⟨S5000x10, .f32⟩
  | .local _ .vmem, ⟨11, _⟩ => ⟨S5000x10, .f32⟩
  | .local _ .vmem, ⟨12, _⟩ => ⟨S5000x20, .f32⟩
  | .local _ .vmem, ⟨13, _⟩ => ⟨S5000x20, .f32⟩
  | .local _ .vmem, ⟨14, _⟩ => ⟨S20x10, .f32⟩
  | .local _ .vmem, ⟨15, _⟩ => ⟨S10x10, .f32⟩
  | .local _ .vmem, ⟨16, _⟩ => ⟨S5000x10, .f32⟩
  | .local _ .vmem, ⟨17, _⟩ => ⟨S5000x10, .f32⟩
  | .local _ .vmem, ⟨18, _⟩ => ⟨S5000x10, .f32⟩
  | .local _ .vmem, ⟨19, _⟩ => ⟨S5000x10, .f32⟩
  | .local _ .vmem, ⟨20, _⟩ => ⟨S10x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S5000x64, .f32⟩
  | .local _ .vmem, ⟨27, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call1_cst : Ref sig .tc := ⟨.hbm, 62, rfl⟩
abbrev main_call1_v0 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_v48 : Ref sig .tc := ⟨.hbm, 76, rfl⟩
abbrev main_c_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call2_cst : Ref sig .tc := ⟨.hbm, 89, rfl⟩
abbrev main_call2_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x20 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S20x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S20x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x128_d1 : Shape.Concatenates [S1250000x64, S1250000x64] S1250000x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x10_S128x10_0_0 : ∀ a, (![0, 0] : Fin 2 → Nat) a + S128x10.size a ≤ S128x10.size a
  h_S128x10 : 0 < S128x10.numel
  inb_S10x10_S10x10_0_0 : ∀ a, (![0, 0] : Fin 2 → Nat) a + S10x10.size a ≤ S10x10.size a
  h_S10x10 : 0 < S10x10.numel
  inb_S5000x10_S5000x10_0_0 : ∀ a, (![0, 0] : Fin 2 → Nat) a + S5000x10.size a ≤ S5000x10.size a
  h_S5000x10 : 0 < S5000x10.numel
  bcast_S_S100000x10 : S_.BroadcastsInDim S100000x10 (![] : Fin 0 → Fin S100000x10.rank)
  concatenates_S1250000x10_S1250000x10_S1250000x20_d1 : Shape.Concatenates [S1250000x10, S1250000x10] S1250000x20 1
  inb_S5000x20_S5000x20_0_0 : ∀ a, (![0, 0] : Fin 2 → Nat) a + S5000x20.size a ≤ S5000x20.size a
  h_S5000x20 : 0 < S5000x20.numel
  shapeCasts_S5000x20_S5000x20 : S5000x20.ShapeCasts S5000x20
  inb_S20x10_S20x10_0_0 : ∀ a, (![0, 0] : Fin 2 → Nat) a + S20x10.size a ≤ S20x10.size a
  h_S20x10 : 0 < S20x10.numel
  shapeCasts_S5000x10_S5000x10 : S5000x10.ShapeCasts S5000x10
  inb_S10x64_S10x64_0_0 : ∀ a, (![0, 0] : Fin 2 → Nat) a + S10x64.size a ≤ S10x64.size a
  h_S10x64 : 0 < S10x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  gather_S100000x64_S1250000x1_S1250000x64_1_0_n_n_0_1_164_wf : GatherDims.WF S100000x64 S1250000x1 S1250000x64 [1] [0] [] [0] [] 1 ![1, 64]
  dot_S5000x128_S128x10_S5000x10_1_0_0_1_n_n_wf : DotDims.WF S5000x128 S128x10 S5000x10 [1] [0] [0] [1] [] []
  dot_S5000x10_S10x10_S5000x10_1_0_0_1_n_n_wf : DotDims.WF S5000x10 S10x10 S5000x10 [1] [0] [0] [1] [] []
  scatter_S100000x10_S1250000x1_S1250000x10_1_0_0_1_wf : ScatterDims.WF S100000x10 S1250000x1 S1250000x10 [1] [0] [0] 1
  gather_S100000x10_S1250000x1_S1250000x10_1_0_n_n_0_1_110_wf : GatherDims.WF S100000x10 S1250000x1 S1250000x10 [1] [0] [] [0] [] 1 ![1, 10]
  dot_S5000x20_S20x10_S5000x10_1_0_0_1_n_n_wf : DotDims.WF S5000x20 S20x10 S5000x10 [1] [0] [0] [1] [] []
  dot_S5000x10_S10x64_S5000x64_1_0_0_1_n_n_wf : DotDims.WF S5000x10 S10x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1250000x128.size a
  hwx0_0 : ∀ i : grid0.Coords, EltTy.bits .f32 = 32 ∨ (Rect.block (s := S1250000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x10.size a ≤ S128x10.size a
  hwx0_1 : ∀ i : grid0.Coords, EltTy.bits .f32 = 32 ∨ (Rect.block (s := S128x10) S128x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x10.size a ≤ S1250000x10.size a
  hwx0_3 : ∀ i : grid0.Coords, EltTy.bits .f32 = 32 ∨ (Rect.block (s := S1250000x10) S5000x10.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x20.size a ≤ S1250000x20.size a
  hwx1_0 : ∀ i : grid1.Coords, EltTy.bits .f32 = 32 ∨ (Rect.block (s := S1250000x20) S5000x20.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S20x10.size a ≤ S20x10.size a
  hwx1_1 : ∀ i : grid1.Coords, EltTy.bits .f32 = 32 ∨ (Rect.block (s := S20x10) S20x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x10.size a ≤ S10x10.size a
  hwx1_2 : ∀ i : grid1.Coords, EltTy.bits .f32 = 32 ∨ (Rect.block (s := S10x10) S10x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x10.size a ≤ S1250000x10.size a
  hwx1_3 : ∀ i : grid1.Coords, EltTy.bits .f32 = 32 ∨ (Rect.block (s := S1250000x10) S5000x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x20.size a ≤ S1250000x20.size a
  hwx2_0 : ∀ i : grid2.Coords, EltTy.bits .f32 = 32 ∨ (Rect.block (s := S1250000x20) S5000x20.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S20x10.size a ≤ S20x10.size a
  hwx2_1 : ∀ i : grid2.Coords, EltTy.bits .f32 = 32 ∨ (Rect.block (s := S20x10) S20x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10x10.size a ≤ S10x10.size a
  hwx2_2 : ∀ i : grid2.Coords, EltTy.bits .f32 = 32 ∨ (Rect.block (s := S10x10) S10x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x10.size a ≤ S1250000x10.size a
  hwx2_3 : ∀ i : grid2.Coords, EltTy.bits .f32 = 32 ∨ (Rect.block (s := S1250000x10) S5000x10.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S100000x10.size a
  hwx3_0 : ∀ i : grid3.Coords, EltTy.bits .f32 = 32 ∨ (Rect.block (s := S100000x10) S5000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10x64.size a ≤ S10x64.size a
  hwx3_1 : ∀ i : grid3.Coords, EltTy.bits .f32 = 32 ∨ (Rect.block (s := S10x64) S10x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def scatter_S100000x10_S1250000x1_S1250000x10_1_0_0_1 : ScatterDims S100000x10 S1250000x1 S1250000x10 where
  updateWindowDims := [1]
  insertedWindowDims := [0]
  scatterDimsToOperandDims := [0]
  indexVectorDim := 1
  wf := scatter_S100000x10_S1250000x1_S1250000x10_1_0_0_1_wf
def gather_S100000x10_S1250000x1_S1250000x10_1_0_n_n_0_1_110 : GatherDims S100000x10 S1250000x1 S1250000x10 where
  offsetDims := [1]
  collapsedSliceDims := [0]
  operandBatchingDims := []
  startIndicesBatchingDims := []
  startIndexMap := [0]
  indexVectorDim := 1
  sliceSizes := ![1, 10]
  wf := gather_S100000x10_S1250000x1_S1250000x10_1_0_n_n_0_1_110_wf
def dot_S5000x20_S20x10_S5000x10_1_0_0_1_n_n : DotDims S5000x20 S20x10 S5000x10 where
  lhsContracting := [1]
  rhsContracting := [0]
  lhsNonContracting := [0]
  rhsNonContracting := [1]
  lhsBatch := []
  rhsBatch := []
  wf := dot_S5000x20_S20x10_S5000x10_1_0_0_1_n_n_wf
def dot_S5000x10_S10x64_S5000x64_1_0_0_1_n_n : DotDims S5000x10 S10x64 S5000x64 where
  lhsContracting := [1]
  rhsContracting := [0]
  lhsNonContracting := [0]
  rhsNonContracting := [1]
  lhsBatch := []
  rhsBatch := []
  wf := dot_S5000x10_S10x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S20x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S10x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S20x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S10x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S5000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v59) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S10x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S128x10 : Shape := ⟨2, ![128, 10]⟩
abbrev S10x10 : Shape := ⟨2, ![10, 10]⟩
abbrev S20x10 : Shape := ⟨2, ![20, 10]⟩
abbrev S10x64 : Shape := ⟨2, ![10, 64]⟩
abbrev S64x64 : Shape := ⟨2, ![64, 64]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S1250000x128 : Shape := ⟨2, ![1250000, 128]⟩
abbrev S1250000x10 : Shape := ⟨2, ![1250000, 10]⟩
abbrev S100000x10 : Shape := ⟨2, ![100000, 10]⟩
abbrev S1250000x20 : Shape := ⟨2, ![1250000, 20]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S128x10, .f32⟩
  | 2 => ⟨S10x10, .f32⟩
  | 3 => ⟨S20x10, .f32⟩
  | 4 => ⟨S10x10, .f32⟩
  | 5 => ⟨S20x10, .f32⟩
  | 6 => ⟨S10x10, .f32⟩
  | 7 => ⟨S10x64, .f32⟩
  | 8 => ⟨S64x64, .f32⟩
  | 9 => ⟨S1250000, .i32⟩
  | 10 => ⟨S1250000, .i32⟩
  | 11 => ⟨S_, .i32⟩
  | 12 => ⟨S1250000, .i32⟩
  | 13 => ⟨S1250000, .i1⟩
  | 14 => ⟨S_, .i32⟩
  | 15 => ⟨S1250000, .i32⟩
  | 16 => ⟨S1250000, .i32⟩
  | 17 => ⟨S1250000, .i32⟩
  | 18 => ⟨S1250000x1, .i32⟩
  | 19 => ⟨S1250000x64, .f32⟩
  | 20 => ⟨S_, .i32⟩
  | 21 => ⟨S1250000, .i32⟩
  | 22 => ⟨S1250000, .i1⟩
  | 23 => ⟨S_, .i32⟩
  | 24 => ⟨S1250000, .i32⟩
  | 25 => ⟨S1250000, .i32⟩
  | 26 => ⟨S1250000, .i32⟩
  | 27 => ⟨S1250000x1, .i32⟩
  | 28 => ⟨S1250000x64, .f32⟩
  | 29 => ⟨S1250000x128, .f32⟩
  | 30 => ⟨S1250000x10, .f32⟩
  | 31 => ⟨S_, .f32⟩
  | 32 => ⟨S1250000x10, .f32⟩
  | 33 => ⟨S1250000x10, .f32⟩
  | 34 => ⟨S1250000x10, .f32⟩
  | 35 => ⟨S_, .f32⟩
  | 36 => ⟨S1250000x10, .f32⟩
  | 37 => ⟨S1250000x10, .f32⟩
  | 38 => ⟨S_, .f32⟩
  | 39 => ⟨S1250000x10, .f32⟩
  | 40 => ⟨S1250000x10, .f32⟩
  | 41 => ⟨S_, .f32⟩
  | 42 => ⟨S100000x10, .f32⟩
  | 43 => ⟨S1250000x1, .i32⟩
  | 44 => ⟨S100000x10, .f32⟩
  | 45 => ⟨S_, .f32⟩
  | 46 => ⟨S100000x10, .f32⟩
  | 47 => ⟨S100000x10, .f32⟩
  | 48 => ⟨S_, .i32⟩
  | 49 => ⟨S1250000, .i32⟩
  | 50 => ⟨S1250000, .i1⟩
  | 51 => ⟨S_, .i32⟩
  | 52 => ⟨S1250000, .i32⟩
  | 53 => ⟨S1250000, .i32⟩
  | 54 => ⟨S1250000, .i32⟩
  | 55 => ⟨S1250000x1, .i32⟩
  | 56 => ⟨S1250000x10, .f32⟩
  | 57 => ⟨S_, .i32⟩
  | 58 => ⟨S1250000, .i32⟩
  | 59 => ⟨S1250000, .i1⟩
  | 60 => ⟨S_, .i32⟩
  | 61 => ⟨S1250000, .i32⟩
  | 62 => ⟨S1250000, .i32⟩
  | 63 => ⟨S1250000, .i32⟩
  | 64 => ⟨S1250000x1, .i32⟩
  | 65 => ⟨S1250000x10, .f32⟩
  | 66 => ⟨S1250000x20, .f32⟩
  | 67 => ⟨S1250000x10, .f32⟩
  | 68 => ⟨S_, .f32⟩
  | 69 => ⟨S1250000x10, .f32⟩
  | 70 => ⟨S1250000x10, .f32⟩
  | 71 => ⟨S1250000x10, .f32⟩
  | 72 => ⟨S_, .f32⟩
  | 73 => ⟨S1250000x10, .f32⟩
  | 74 => ⟨S1250000x10, .f32⟩
  | 75 => ⟨S_, .f32⟩
  | 76 => ⟨S1250000x10, .f32⟩
  | 77 => ⟨S1250000x10, .f32⟩
  | 78 => ⟨S_, .f32⟩
  | 79 => ⟨S100000x10, .f32⟩
  | 80 => ⟨S1250000x1, .i32⟩
  | 81 => ⟨S100000x10, .f32⟩
  | 82 => ⟨S_, .f32⟩
  | 83 => ⟨S100000x10, .f32⟩
  | 84 => ⟨S100000x10, .f32⟩
  | 85 => ⟨S_, .i32⟩
  | 86 => ⟨S1250000, .i32⟩
  | 87 => ⟨S1250000, .i1⟩
  | 88 => ⟨S_, .i32⟩
  | 89 => ⟨S1250000, .i32⟩
  | 90 => ⟨S1250000, .i32⟩
  | 91 => ⟨S1250000, .i32⟩
  | 92 => ⟨S1250000x1, .i32⟩
  | 93 => ⟨S1250000x10, .f32⟩
  | 94 => ⟨S_, .i32⟩
  | 95 => ⟨S1250000, .i32⟩
  | 96 => ⟨S1250000, .i1⟩
  | 97 => ⟨S_, .i32⟩
  | 98 => ⟨S1250000, .i32⟩
  | 99 => ⟨S1250000, .i32⟩
  | 100 => ⟨S1250000, .i32⟩
  | 101 => ⟨S1250000x1, .i32⟩
  | 102 => ⟨S1250000x10, .f32⟩
  | 103 => ⟨S1250000x20, .f32⟩
  | 104 => ⟨S1250000x10, .f32⟩
  | 105 => ⟨S_, .f32⟩
  | 106 => ⟨S1250000x10, .f32⟩
  | 107 => ⟨S1250000x10, .f32⟩
  | 108 => ⟨S1250000x10, .f32⟩
  | 109 => ⟨S_, .f32⟩
  | 110 => ⟨S1250000x10, .f32⟩
  | 111 => ⟨S1250000x10, .f32⟩
  | 112 => ⟨S_, .f32⟩
  | 113 => ⟨S1250000x10, .f32⟩
  | 114 => ⟨S1250000x10, .f32⟩
  | 115 => ⟨S_, .f32⟩
  | 116 => ⟨S100000x10, .f32⟩
  | 117 => ⟨S1250000x1, .i32⟩
  | 118 => ⟨S100000x10, .f32⟩
  | 119 => ⟨S_, .f32⟩
  | 120 => ⟨S100000x10, .f32⟩
  | 121 => ⟨S100000x10, .f32⟩
  | 122 => ⟨S100000x64, .f32⟩
  | 123 => ⟨S_, .f32⟩
  | 124 => ⟨S100000x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_call1_cst : Ref sig .tc := ⟨.hbm, 35, rfl⟩
abbrev main_call1_v0 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call2_cst : Ref sig .tc := ⟨.hbm, 45, rfl⟩
abbrev main_call2_v0 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call3_cst : Ref sig .tc := ⟨.hbm, 68, rfl⟩
abbrev main_call3_v0 : Ref sig .tc := ⟨.hbm, 69, rfl⟩
abbrev main_v41 : Ref sig .tc := ⟨.hbm, 70, rfl⟩
abbrev main_v42 : Ref sig .tc := ⟨.hbm, 71, rfl⟩
abbrev main_call4_cst : Ref sig .tc := ⟨.hbm, 72, rfl⟩
abbrev main_call4_v0 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_cst_9 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_call5_cst : Ref sig .tc := ⟨.hbm, 82, rfl⟩
abbrev main_call5_v0 : Ref sig .tc := ⟨.hbm, 83, rfl⟩
abbrev main_v49 : Ref sig .tc := ⟨.hbm, 84, rfl⟩
abbrev main_c_10 : Ref sig .tc := ⟨.hbm, 85, rfl⟩
abbrev main_v50 : Ref sig .tc := ⟨.hbm, 86, rfl⟩
abbrev main_v51 : Ref sig .tc := ⟨.hbm, 87, rfl⟩
abbrev main_c_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_12 : Ref sig .tc := ⟨.hbm, 94, rfl⟩
abbrev main_v57 : Ref sig .tc := ⟨.hbm, 95, rfl⟩
abbrev main_v58 : Ref sig .tc := ⟨.hbm, 96, rfl⟩
abbrev main_c_13 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_call6_cst : Ref sig .tc := ⟨.hbm, 105, rfl⟩
abbrev main_call6_v0 : Ref sig .tc := ⟨.hbm, 106, rfl⟩
abbrev main_v66 : Ref sig .tc := ⟨.hbm, 107, rfl⟩
abbrev main_v67 : Ref sig .tc := ⟨.hbm, 108, rfl⟩
abbrev main_call7_cst : Ref sig .tc := ⟨.hbm, 109, rfl⟩
abbrev main_call7_v0 : Ref sig .tc := ⟨.hbm, 110, rfl⟩
abbrev main_v68 : Ref sig .tc := ⟨.hbm, 111, rfl⟩
abbrev main_cst_14 : Ref sig .tc := ⟨.hbm, 112, rfl⟩
abbrev main_v69 : Ref sig .tc := ⟨.hbm, 113, rfl⟩
abbrev main_v70 : Ref sig .tc := ⟨.hbm, 114, rfl⟩
abbrev main_cst_15 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_call8_cst : Ref sig .tc := ⟨.hbm, 119, rfl⟩
abbrev main_call8_v0 : Ref sig .tc := ⟨.hbm, 120, rfl⟩
abbrev main_v74 : Ref sig .tc := ⟨.hbm, 121, rfl⟩
abbrev main_v75 : Ref sig .tc := ⟨.hbm, 122, rfl⟩
abbrev main_call9_cst : Ref sig .tc := ⟨.hbm, 123, rfl⟩
abbrev main_call9_v0 : Ref sig .tc := ⟨.hbm, 124, rfl⟩
abbrev main_v76 : Ref sig .tc := ⟨.hbm, 125, rfl⟩
abbrev main_v77 : Ref sig .tc := ⟨.hbm, 126, rfl⟩
abbrev main_call10_cst : Ref sig .tc := ⟨.hbm, 127, rfl⟩
abbrev main_call10_v0 : Ref sig .tc := ⟨.hbm, 128, rfl⟩
abbrev main_v78 : Ref sig .tc := ⟨.hbm, 129, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  concatenates_S1250000x64_S1250000x64_S1250000x128_d1 : Shape.Concatenates [S1250000x64, S1250000x64] S1250000x128 1
  bcast_S_S1250000x10 : S_.BroadcastsInDim S1250000x10 (![] : Fin 0 → Fin S1250000x10.rank)
  bcast_S_S100000x10 : S_.BroadcastsInDim S100000x10 (![] : Fin 0 → Fin S100000x10.rank)
  concatenates_S1250000x10_S1250000x10_S1250000x20_d1 : Shape.Concatenates [S1250000x10, S1250000x10] S1250000x20 1
  bcast_S_S100000x64 : S_.BroadcastsInDim S100000x64 (![] : Fin 0 → Fin S100000x64.rank)
  gather_S100000x64_S1250000x1_S1250000x64_1_0_n_n_0_1_164_wf : GatherDims.WF S100000x64 S1250000x1 S1250000x64 [1] [0] [] [0] [] 1 ![1, 64]
  dot_S1250000x128_S128x10_S1250000x10_1_0_0_1_n_n_wf : DotDims.WF S1250000x128 S128x10 S1250000x10 [1] [0] [0] [1] [] []
  dot_S1250000x10_S10x10_S1250000x10_1_0_0_1_n_n_wf : DotDims.WF S1250000x10 S10x10 S1250000x10 [1] [0] [0] [1] [] []
  scatter_S100000x10_S1250000x1_S1250000x10_1_0_0_1_wf : ScatterDims.WF S100000x10 S1250000x1 S1250000x10 [1] [0] [0] 1
  gather_S100000x10_S1250000x1_S1250000x10_1_0_n_n_0_1_110_wf : GatherDims.WF S100000x10 S1250000x1 S1250000x10 [1] [0] [] [0] [] 1 ![1, 10]
  dot_S1250000x20_S20x10_S1250000x10_1_0_0_1_n_n_wf : DotDims.WF S1250000x20 S20x10 S1250000x10 [1] [0] [0] [1] [] []
  dot_S100000x10_S10x64_S100000x64_1_0_0_1_n_n_wf : DotDims.WF S100000x10 S10x64 S100000x64 [1] [0] [0] [1] [] []
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def dot_S1250000x128_S128x10_S1250000x10_1_0_0_1_n_n : DotDims S1250000x128 S128x10 S1250000x10 where
  lhsContracting := [1]
  rhsContracting := [0]
  lhsNonContracting := [0]
  rhsNonContracting := [1]
  lhsBatch := []
  rhsBatch := []
  wf := dot_S1250000x128_S128x10_S1250000x10_1_0_0_1_n_n_wf
def dot_S1250000x10_S10x10_S1250000x10_1_0_0_1_n_n : DotDims S1250000x10 S10x10 S1250000x10 where
  lhsContracting := [1]
  rhsContracting := [0]
  lhsNonContracting := [0]
  rhsNonContracting := [1]
  lhsBatch := []
  rhsBatch := []
  wf := dot_S1250000x10_S10x10_S1250000x10_1_0_0_1_n_n_wf
def scatter_S100000x10_S1250000x1_S1250000x10_1_0_0_1 : ScatterDims S100000x10 S1250000x1 S1250000x10 where
  updateWindowDims := [1]
  insertedWindowDims := [0]
  scatterDimsToOperandDims := [0]
  indexVectorDim := 1
  wf := scatter_S100000x10_S1250000x1_S1250000x10_1_0_0_1_wf
def gather_S100000x10_S1250000x1_S1250000x10_1_0_n_n_0_1_110 : GatherDims S100000x10 S1250000x1 S1250000x10 where
  offsetDims := [1]
  collapsedSliceDims := [0]
  operandBatchingDims := []
  startIndicesBatchingDims := []
  startIndexMap := [0]
  indexVectorDim := 1
  sliceSizes := ![1, 10]
  wf := gather_S100000x10_S1250000x1_S1250000x10_1_0_n_n_0_1_110_wf
def dot_S1250000x20_S20x10_S1250000x10_1_0_0_1_n_n : DotDims S1250000x20 S20x10 S1250000x10 where
  lhsContracting := [1]
  rhsContracting := [0]
  lhsNonContracting := [0]
  rhsNonContracting := [1]
  lhsBatch := []
  rhsBatch := []
  wf := dot_S1250000x20_S20x10_S1250000x10_1_0_0_1_n_n_wf
def dot_S100000x10_S10x64_S100000x64_1_0_0_1_n_n : DotDims S100000x10 S10x64 S100000x64 where
  lhsContracting := [1]
  rhsContracting := [0]
  lhsNonContracting := [0]
  rhsNonContracting := [1]
  lhsBatch := []
  rhsBatch := []
  wf := dot_S100000x10_S10x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunValued.lean ====
/-
  The run of the idealized kernel program with its result named.

  The program is fourteen segments: stretches of host operations and five kernel launches.  The buffer contents at the
  segment boundaries form a chain `W0, W1, …, W14` from the launch memory: a host stretch applies its operations to
  the contents before it, a launch replaces its output array by what the grid's write-backs leave and keeps every
  other buffer.  Every weakly fair execution terminates without a fault in a state whose buffers hold `W14`; so the
  result buffer ends at `W14` read at it, and every argument at its launch contents.
-/
import proofs.«135176_j89558658056596_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_end : θ_run defs (onTc (τ := τ) (main (F := F))) ⟨m, fun _ => 0, ρ⟩ (fun r => ∀ c : Dev nD,
      r.2.mem ((c.tc : Thread nD τ).loc main_v61) = Gen.W14 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) Gen.adm (Gen.pdats m ρ) () cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W14 m ρ c) s')
      isplitl [Hh] <;> iassumption)
    (hQ := fun s h c =>
      ⟨h c _ (Gen.mem_uc main_v61 (by decide)),
       (h c _ (Gen.mem_uc main_arg0 (by decide))).trans (Gen.W14_main_arg0 m ρ c),
       (h c _ (Gen.mem_uc main_arg1 (by decide))).trans (Gen.W14_main_arg1 m ρ c),
       (h c _ (Gen.mem_uc main_arg2 (by decide))).trans (Gen.W14_main_arg2 m ρ c),
       (h c _ (Gen.mem_uc main_arg3 (by decide))).trans (Gen.W14_main_arg3 m ρ c),
       (h c _ (Gen.mem_uc main_arg4 (by decide))).trans (Gen.W14_main_arg4 m ρ c),
       (h c _ (Gen.mem_uc main_arg5 (by decide))).trans (Gen.W14_main_arg5 m ρ c),
       (h c _ (Gen.mem_uc main_arg6 (by decide))).trans (Gen.W14_main_arg6 m ρ c),
       (h c _ (Gen.mem_uc main_arg7 (by decide))).trans (Gen.W14_main_arg7 m ρ c),
       (h c _ (Gen.mem_uc main_arg8 (by decide))).trans (Gen.W14_main_arg8 m ρ c),
       (h c _ (Gen.mem_uc main_arg9 (by decide))).trans (Gen.W14_main_arg9 m ρ c),
       (h c _ (Gen.mem_uc main_arg10 (by decide))).trans (Gen.W14_main_arg10 m ρ c)⟩)

end Cert.KernelIdeal.RunValue

end
-- ==== Proof.Walk.lean ====
/-
  The arguments are never written: no host operation's result is an argument's buffer, and a launch writes only its
  output array.  So at every segment boundary up to the one where a later segment reads it, an argument's buffer holds
  what it held at the launch.  One lemma per boundary and argument, each from the previous boundary's.
-/
import proofs.«135176_j89558658056596_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- A buffer that no operation of a host stretch writes holds after the stretch what it held before. -/
macro "keeps_through " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! Argument 1 keeps its launch contents up to boundary 1. -/
theorem W1_arg1 (c : Dev nD) : W1 m ρ c (Proc.devRef .tc main_arg1) = m ((c : Thread nD τ).loc main_arg1) :=
  (show W1 m ρ c (Proc.devRef .tc main_arg1) = W0 m ρ c (Proc.devRef .tc main_arg1) from (by keeps_through hostOps0)).trans (rfl)

/-! Argument 2 keeps its launch contents up to boundary 1. -/
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) from (by keeps_through hostOps0)).trans (rfl)

/-! Argument 3 keeps its launch contents up to boundary 5. -/
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) from (by keeps_through hostOps0)).trans (rfl)
theorem W2_arg3 (c : Dev nD) : W2 m ρ c (Proc.devRef .tc main_arg3) = m ((c : Thread nD τ).loc main_arg3) :=
  (show W2 m ρ c (Proc.devRef .tc main_arg3) = W1 m ρ c (Proc.devRef .tc main_arg3) from (W2_of_ne m ρ c main_arg3 (by decide))).trans (W1_arg3 m ρ c)
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) from (by keeps_through hostOps1)).trans (W2_arg3 m ρ c)
theorem W4_arg3 (c : Dev nD) : W4 m ρ c (Proc.devRef .tc main_arg3) = m ((c : Thread nD τ).loc main_arg3) :=
  (show W4 m ρ c (Proc.devRef .tc main_arg3) = W3 m ρ c (Proc.devRef .tc main_arg3) from (by keeps_through hostOps1_1)).trans (W3_arg3 m ρ c)
theorem W5_arg3 (c : Dev nD) : W5 m ρ c (Proc.devRef .tc main_arg3) = m ((c : Thread nD τ).loc main_arg3) :=
  (show W5 m ρ c (Proc.devRef .tc main_arg3) = W4 m ρ c (Proc.devRef .tc main_arg3) from (by keeps_through hostOps1_2)).trans (W4_arg3 m ρ c)

/-! Argument 4 keeps its launch contents up to boundary 5. -/
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) from (by keeps_through hostOps0)).trans (rfl)
theorem W2_arg4 (c : Dev nD) : W2 m ρ c (Proc.devRef .tc main_arg4) = m ((c : Thread nD τ).loc main_arg4) :=
  (show W2 m ρ c (Proc.devRef .tc main_arg4) = W1 m ρ c (Proc.devRef .tc main_arg4) from (W2_of_ne m ρ c main_arg4 (by decide))).trans (W1_arg4 m ρ c)
theorem W3_arg4 (c : Dev nD) : W3 m ρ c (Proc.devRef .tc main_arg4) = m ((c : Thread nD τ).loc main_arg4) :=
  (show W3 m ρ c (Proc.devRef .tc main_arg4) = W2 m ρ c (Proc.devRef .tc main_arg4) from (by keeps_through hostOps1)).trans (W2_arg4 m ρ c)
theorem W4_arg4 (c : Dev nD) : W4 m ρ c (Proc.devRef .tc main_arg4) = m ((c : Thread nD τ).loc main_arg4) :=
  (show W4 m ρ c (Proc.devRef .tc main_arg4) = W3 m ρ c (Proc.devRef .tc main_arg4) from (by keeps_through hostOps1_1)).trans (W3_arg4 m ρ c)
theorem W5_arg4 (c : Dev nD) : W5 m ρ c (Proc.devRef .tc main_arg4) = m ((c : Thread nD τ).loc main_arg4) :=
  (show W5 m ρ c (Proc.devRef .tc main_arg4) = W4 m ρ c (Proc.devRef .tc main_arg4) from (by keeps_through hostOps1_2)).trans (W4_arg4 m ρ c)

/-! Argument 5 keeps its launch contents up to boundary 9. -/
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) from (by keeps_through hostOps0)).trans (rfl)
theorem W2_arg5 (c : Dev nD) : W2 m ρ c (Proc.devRef .tc main_arg5) = m ((c : Thread nD τ).loc main_arg5) :=
  (show W2 m ρ c (Proc.devRef .tc main_arg5) = W1 m ρ c (Proc.devRef .tc main_arg5) from (W2_of_ne m ρ c main_arg5 (by decide))).trans (W1_arg5 m ρ c)
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) from (by keeps_through hostOps1)).trans (W2_arg5 m ρ c)
theorem W4_arg5 (c : Dev nD) : W4 m ρ c (Proc.devRef .tc main_arg5) = m ((c : Thread nD τ).loc main_arg5) :=
  (show W4 m ρ c (Proc.devRef .tc main_arg5) = W3 m ρ c (Proc.devRef .tc main_arg5) from (by keeps_through hostOps1_1)).trans (W3_arg5 m ρ c)
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) from (by keeps_through hostOps1_2)).trans (W4_arg5 m ρ c)
theorem W6_arg5 (c : Dev nD) : W6 m ρ c (Proc.devRef .tc main_arg5) = m ((c : Thread nD τ).loc main_arg5) :=
  (show W6 m ρ c (Proc.devRef .tc main_arg5) = W5 m ρ c (Proc.devRef .tc main_arg5) from (W6_of_ne m ρ c main_arg5 (by decide))).trans (W5_arg5 m ρ c)
theorem W7_arg5 (c : Dev nD) : W7 m ρ c (Proc.devRef .tc main_arg5) = m ((c : Thread nD τ).loc main_arg5) :=
  (show W7 m ρ c (Proc.devRef .tc main_arg5) = W6 m ρ c (Proc.devRef .tc main_arg5) from (by keeps_through hostOps2)).trans (W6_arg5 m ρ c)
theorem W8_arg5 (c : Dev nD) : W8 m ρ c (Proc.devRef .tc main_arg5) = m ((c : Thread nD τ).loc main_arg5) :=
  (show W8 m ρ c (Proc.devRef .tc main_arg5) = W7 m ρ c (Proc.devRef .tc main_arg5) from (by keeps_through hostOps2_1)).trans (W7_arg5 m ρ c)
theorem W9_arg5 (c : Dev nD) : W9 m ρ c (Proc.devRef .tc main_arg5) = m ((c : Thread nD τ).loc main_arg5) :=
  (show W9 m ρ c (Proc.devRef .tc main_arg5) = W8 m ρ c (Proc.devRef .tc main_arg5) from (by keeps_through hostOps2_2)).trans (W8_arg5 m ρ c)

/-! Argument 6 keeps its launch contents up to boundary 9. -/
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) from (by keeps_through hostOps0)).trans (rfl)
theorem W2_arg6 (c : Dev nD) : W2 m ρ c (Proc.devRef .tc main_arg6) = m ((c : Thread nD τ).loc main_arg6) :=
  (show W2 m ρ c (Proc.devRef .tc main_arg6) = W1 m ρ c (Proc.devRef .tc main_arg6) from (W2_of_ne m ρ c main_arg6 (by decide))).trans (W1_arg6 m ρ c)
theorem W3_arg6 (c : Dev nD) : W3 m ρ c (Proc.devRef .tc main_arg6) = m ((c : Thread nD τ).loc main_arg6) :=
  (show W3 m ρ c (Proc.devRef .tc main_arg6) = W2 m ρ c (Proc.devRef .tc main_arg6) from (by keeps_through hostOps1)).trans (W2_arg6 m ρ c)
theorem W4_arg6 (c : Dev nD) : W4 m ρ c (Proc.devRef .tc main_arg6) = m ((c : Thread nD τ).loc main_arg6) :=
  (show W4 m ρ c (Proc.devRef .tc main_arg6) = W3 m ρ c (Proc.devRef .tc main_arg6) from (by keeps_through hostOps1_1)).trans (W3_arg6 m ρ c)
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) from (by keeps_through hostOps1_2)).trans (W4_arg6 m ρ c)
theorem W6_arg6 (c : Dev nD) : W6 m ρ c (Proc.devRef .tc main_arg6) = m ((c : Thread nD τ).loc main_arg6) :=
  (show W6 m ρ c (Proc.devRef .tc main_arg6) = W5 m ρ c (Proc.devRef .tc main_arg6) from (W6_of_ne m ρ c main_arg6 (by decide))).trans (W5_arg6 m ρ c)
theorem W7_arg6 (c : Dev nD) : W7 m ρ c (Proc.devRef .tc main_arg6) = m ((c : Thread nD τ).loc main_arg6) :=
  (show W7 m ρ c (Proc.devRef .tc main_arg6) = W6 m ρ c (Proc.devRef .tc main_arg6) from (by keeps_through hostOps2)).trans (W6_arg6 m ρ c)
theorem W8_arg6 (c : Dev nD) : W8 m ρ c (Proc.devRef .tc main_arg6) = m ((c : Thread nD τ).loc main_arg6) :=
  (show W8 m ρ c (Proc.devRef .tc main_arg6) = W7 m ρ c (Proc.devRef .tc main_arg6) from (by keeps_through hostOps2_1)).trans (W7_arg6 m ρ c)
theorem W9_arg6 (c : Dev nD) : W9 m ρ c (Proc.devRef .tc main_arg6) = m ((c : Thread nD τ).loc main_arg6) :=
  (show W9 m ρ c (Proc.devRef .tc main_arg6) = W8 m ρ c (Proc.devRef .tc main_arg6) from (by keeps_through hostOps2_2)).trans (W8_arg6 m ρ c)

/-! Argument 7 keeps its launch contents up to boundary 12. -/
theorem W1_arg7 (c : Dev nD) : W1 m ρ c (Proc.devRef .tc main_arg7) = m ((c : Thread nD τ).loc main_arg7) :=
  (show W1 m ρ c (Proc.devRef .tc main_arg7) = W0 m ρ c (Proc.devRef .tc main_arg7) from (by keeps_through hostOps0)).trans (rfl)
theorem W2_arg7 (c : Dev nD) : W2 m ρ c (Proc.devRef .tc main_arg7) = m ((c : Thread nD τ).loc main_arg7) :=
  (show W2 m ρ c (Proc.devRef .tc main_arg7) = W1 m ρ c (Proc.devRef .tc main_arg7) from (W2_of_ne m ρ c main_arg7 (by decide))).trans (W1_arg7 m ρ c)
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) from (by keeps_through hostOps1)).trans (W2_arg7 m ρ c)
theorem W4_arg7 (c : Dev nD) : W4 m ρ c (Proc.devRef .tc main_arg7) = m ((c : Thread nD τ).loc main_arg7) :=
  (show W4 m ρ c (Proc.devRef .tc main_arg7) = W3 m ρ c (Proc.devRef .tc main_arg7) from (by keeps_through hostOps1_1)).trans (W3_arg7 m ρ c)
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) from (by keeps_through hostOps1_2)).trans (W4_arg7 m ρ c)
theorem W6_arg7 (c : Dev nD) : W6 m ρ c (Proc.devRef .tc main_arg7) = m ((c : Thread nD τ).loc main_arg7) :=
  (show W6 m ρ c (Proc.devRef .tc main_arg7) = W5 m ρ c (Proc.devRef .tc main_arg7) from (W6_of_ne m ρ c main_arg7 (by decide))).trans (W5_arg7 m ρ c)
theorem W7_arg7 (c : Dev nD) : W7 m ρ c (Proc.devRef .tc main_arg7) = m ((c : Thread nD τ).loc main_arg7) :=
  (show W7 m ρ c (Proc.devRef .tc main_arg7) = W6 m ρ c (Proc.devRef .tc main_arg7) from (by keeps_through hostOps2)).trans (W6_arg7 m ρ c)
theorem W8_arg7 (c : Dev nD) : W8 m ρ c (Proc.devRef .tc main_arg7) = m ((c : Thread nD τ).loc main_arg7) :=
  (show W8 m ρ c (Proc.devRef .tc main_arg7) = W7 m ρ c (Proc.devRef .tc main_arg7) from (by keeps_through hostOps2_1)).trans (W7_arg7 m ρ c)
theorem W9_arg7 (c : Dev nD) : W9 m ρ c (Proc.devRef .tc main_arg7) = m ((c : Thread nD τ).loc main_arg7) :=
  (show W9 m ρ c (Proc.devRef .tc main_arg7) = W8 m ρ c (Proc.devRef .tc main_arg7) from (by keeps_through hostOps2_2)).trans (W8_arg7 m ρ c)
theorem W10_arg7 (c : Dev nD) : W10 m ρ c (Proc.devRef .tc main_arg7) = m ((c : Thread nD τ).loc main_arg7) :=
  (show W10 m ρ c (Proc.devRef .tc main_arg7) = W9 m ρ c (Proc.devRef .tc main_arg7) from (W10_of_ne m ρ c main_arg7 (by decide))).trans (W9_arg7 m ρ c)
theorem W11_arg7 (c : Dev nD) : W11 m ρ c (Proc.devRef .tc main_arg7) = m ((c : Thread nD τ).loc main_arg7) :=
  (show W11 m ρ c (Proc.devRef .tc main_arg7) = W10 m ρ c (Proc.devRef .tc main_arg7) from (by keeps_through hostOps3)).trans (W10_arg7 m ρ c)
theorem W12_arg7 (c : Dev nD) : W12 m ρ c (Proc.devRef .tc main_arg7) = m ((c : Thread nD τ).loc main_arg7) :=
  (show W12 m ρ c (Proc.devRef .tc main_arg7) = W11 m ρ c (Proc.devRef .tc main_arg7) from (by keeps_through hostOps3_1)).trans (W11_arg7 m ρ c)

/-! Argument 8 keeps its launch contents up to boundary 13. -/
theorem W1_arg8 (c : Dev nD) : W1 m ρ c (Proc.devRef .tc main_arg8) = m ((c : Thread nD τ).loc main_arg8) :=
  (show W1 m ρ c (Proc.devRef .tc main_arg8) = W0 m ρ c (Proc.devRef .tc main_arg8) from (by keeps_through hostOps0)).trans (rfl)
theorem W2_arg8 (c : Dev nD) : W2 m ρ c (Proc.devRef .tc main_arg8) = m ((c : Thread nD τ).loc main_arg8) :=
  (show W2 m ρ c (Proc.devRef .tc main_arg8) = W1 m ρ c (Proc.devRef .tc main_arg8) from (W2_of_ne m ρ c main_arg8 (by decide))).trans (W1_arg8 m ρ c)
theorem W3_arg8 (c : Dev nD) : W3 m ρ c (Proc.devRef .tc main_arg8) = m ((c : Thread nD τ).loc main_arg8) :=
  (show W3 m ρ c (Proc.devRef .tc main_arg8) = W2 m ρ c (Proc.devRef .tc main_arg8) from (by keeps_through hostOps1)).trans (W2_arg8 m ρ c)
theorem W4_arg8 (c : Dev nD) : W4 m ρ c (Proc.devRef .tc main_arg8) = m ((c : Thread nD τ).loc main_arg8) :=
  (show W4 m ρ c (Proc.devRef .tc main_arg8) = W3 m ρ c (Proc.devRef .tc main_arg8) from (by keeps_through hostOps1_1)).trans (W3_arg8 m ρ c)
theorem W5_arg8 (c : Dev nD) : W5 m ρ c (Proc.devRef .tc main_arg8) = m ((c : Thread nD τ).loc main_arg8) :=
  (show W5 m ρ c (Proc.devRef .tc main_arg8) = W4 m ρ c (Proc.devRef .tc main_arg8) from (by keeps_through hostOps1_2)).trans (W4_arg8 m ρ c)
theorem W6_arg8 (c : Dev nD) : W6 m ρ c (Proc.devRef .tc main_arg8) = m ((c : Thread nD τ).loc main_arg8) :=
  (show W6 m ρ c (Proc.devRef .tc main_arg8) = W5 m ρ c (Proc.devRef .tc main_arg8) from (W6_of_ne m ρ c main_arg8 (by decide))).trans (W5_arg8 m ρ c)
theorem W7_arg8 (c : Dev nD) : W7 m ρ c (Proc.devRef .tc main_arg8) = m ((c : Thread nD τ).loc main_arg8) :=
  (show W7 m ρ c (Proc.devRef .tc main_arg8) = W6 m ρ c (Proc.devRef .tc main_arg8) from (by keeps_through hostOps2)).trans (W6_arg8 m ρ c)
theorem W8_arg8 (c : Dev nD) : W8 m ρ c (Proc.devRef .tc main_arg8) = m ((c : Thread nD τ).loc main_arg8) :=
  (show W8 m ρ c (Proc.devRef .tc main_arg8) = W7 m ρ c (Proc.devRef .tc main_arg8) from (by keeps_through hostOps2_1)).trans (W7_arg8 m ρ c)
theorem W9_arg8 (c : Dev nD) : W9 m ρ c (Proc.devRef .tc main_arg8) = m ((c : Thread nD τ).loc main_arg8) :=
  (show W9 m ρ c (Proc.devRef .tc main_arg8) = W8 m ρ c (Proc.devRef .tc main_arg8) from (by keeps_through hostOps2_2)).trans (W8_arg8 m ρ c)
theorem W10_arg8 (c : Dev nD) : W10 m ρ c (Proc.devRef .tc main_arg8) = m ((c : Thread nD τ).loc main_arg8) :=
  (show W10 m ρ c (Proc.devRef .tc main_arg8) = W9 m ρ c (Proc.devRef .tc main_arg8) from (W10_of_ne m ρ c main_arg8 (by decide))).trans (W9_arg8 m ρ c)
theorem W11_arg8 (c : Dev nD) : W11 m ρ c (Proc.devRef .tc main_arg8) = m ((c : Thread nD τ).loc main_arg8) :=
  (show W11 m ρ c (Proc.devRef .tc main_arg8) = W10 m ρ c (Proc.devRef .tc main_arg8) from (by keeps_through hostOps3)).trans (W10_arg8 m ρ c)
theorem W12_arg8 (c : Dev nD) : W12 m ρ c (Proc.devRef .tc main_arg8) = m ((c : Thread nD τ).loc main_arg8) :=
  (show W12 m ρ c (Proc.devRef .tc main_arg8) = W11 m ρ c (Proc.devRef .tc main_arg8) from (by keeps_through hostOps3_1)).trans (W11_arg8 m ρ c)
theorem W13_arg8 (c : Dev nD) : W13 m ρ c (Proc.devRef .tc main_arg8) = m ((c : Thread nD τ).loc main_arg8) :=
  (show W13 m ρ c (Proc.devRef .tc main_arg8) = W12 m ρ c (Proc.devRef .tc main_arg8) from (W13_of_ne m ρ c main_arg8 (by decide))).trans (W12_arg8 m ρ c)

/-! Argument 9 keeps its launch contents up to boundary 6. -/
theorem W1_arg9 (c : Dev nD) : W1 m ρ c (Proc.devRef .tc main_arg9) = m ((c : Thread nD τ).loc main_arg9) :=
  (show W1 m ρ c (Proc.devRef .tc main_arg9) = W0 m ρ c (Proc.devRef .tc main_arg9) from (by keeps_through hostOps0)).trans (rfl)
theorem W2_arg9 (c : Dev nD) : W2 m ρ c (Proc.devRef .tc main_arg9) = m ((c : Thread nD τ).loc main_arg9) :=
  (show W2 m ρ c (Proc.devRef .tc main_arg9) = W1 m ρ c (Proc.devRef .tc main_arg9) from (W2_of_ne m ρ c main_arg9 (by decide))).trans (W1_arg9 m ρ c)
theorem W3_arg9 (c : Dev nD) : W3 m ρ c (Proc.devRef .tc main_arg9) = m ((c : Thread nD τ).loc main_arg9) :=
  (show W3 m ρ c (Proc.devRef .tc main_arg9) = W2 m ρ c (Proc.devRef .tc main_arg9) from (by keeps_through hostOps1)).trans (W2_arg9 m ρ c)
theorem W4_arg9 (c : Dev nD) : W4 m ρ c (Proc.devRef .tc main_arg9) = m ((c : Thread nD τ).loc main_arg9) :=
  (show W4 m ρ c (Proc.devRef .tc main_arg9) = W3 m ρ c (Proc.devRef .tc main_arg9) from (by keeps_through hostOps1_1)).trans (W3_arg9 m ρ c)
theorem W5_arg9 (c : Dev nD) : W5 m ρ c (Proc.devRef .tc main_arg9) = m ((c : Thread nD τ).loc main_arg9) :=
  (show W5 m ρ c (Proc.devRef .tc main_arg9) = W4 m ρ c (Proc.devRef .tc main_arg9) from (by keeps_through hostOps1_2)).trans (W4_arg9 m ρ c)
theorem W6_arg9 (c : Dev nD) : W6 m ρ c (Proc.devRef .tc main_arg9) = m ((c : Thread nD τ).loc main_arg9) :=
  (show W6 m ρ c (Proc.devRef .tc main_arg9) = W5 m ρ c (Proc.devRef .tc main_arg9) from (W6_of_ne m ρ c main_arg9 (by decide))).trans (W5_arg9 m ρ c)

/-! Argument 10 keeps its launch contents up to boundary 10. -/
theorem W1_arg10 (c : Dev nD) : W1 m ρ c (Proc.devRef .tc main_arg10) = m ((c : Thread nD τ).loc main_arg10) :=
  (show W1 m ρ c (Proc.devRef .tc main_arg10) = W0 m ρ c (Proc.devRef .tc main_arg10) from (by keeps_through hostOps0)).trans (rfl)
theorem W2_arg10 (c : Dev nD) : W2 m ρ c (Proc.devRef .tc main_arg10) = m ((c : Thread nD τ).loc main_arg10) :=
  (show W2 m ρ c (Proc.devRef .tc main_arg10) = W1 m ρ c (Proc.devRef .tc main_arg10) from (W2_of_ne m ρ c main_arg10 (by decide))).trans (W1_arg10 m ρ c)
theorem W3_arg10 (c : Dev nD) : W3 m ρ c (Proc.devRef .tc main_arg10) = m ((c : Thread nD τ).loc main_arg10) :=
  (show W3 m ρ c (Proc.devRef .tc main_arg10) = W2 m ρ c (Proc.devRef .tc main_arg10) from (by keeps_through hostOps1)).trans (W2_arg10 m ρ c)
theorem W4_arg10 (c : Dev nD) : W4 m ρ c (Proc.devRef .tc main_arg10) = m ((c : Thread nD τ).loc main_arg10) :=
  (show W4 m ρ c (Proc.devRef .tc main_arg10) = W3 m ρ c (Proc.devRef .tc main_arg10) from (by keeps_through hostOps1_1)).trans (W3_arg10 m ρ c)
theorem W5_arg10 (c : Dev nD) : W5 m ρ c (Proc.devRef .tc main_arg10) = m ((c : Thread nD τ).loc main_arg10) :=
  (show W5 m ρ c (Proc.devRef .tc main_arg10) = W4 m ρ c (Proc.devRef .tc main_arg10) from (by keeps_through hostOps1_2)).trans (W4_arg10 m ρ c)
theorem W6_arg10 (c : Dev nD) : W6 m ρ c (Proc.devRef .tc main_arg10) = m ((c : Thread nD τ).loc main_arg10) :=
  (show W6 m ρ c (Proc.devRef .tc main_arg10) = W5 m ρ c (Proc.devRef .tc main_arg10) from (W6_of_ne m ρ c main_arg10 (by decide))).trans (W5_arg10 m ρ c)
theorem W7_arg10 (c : Dev nD) : W7 m ρ c (Proc.devRef .tc main_arg10) = m ((c : Thread nD τ).loc main_arg10) :=
  (show W7 m ρ c (Proc.devRef .tc main_arg10) = W6 m ρ c (Proc.devRef .tc main_arg10) from (by keeps_through hostOps2)).trans (W6_arg10 m ρ c)
theorem W8_arg10 (c : Dev nD) : W8 m ρ c (Proc.devRef .tc main_arg10) = m ((c : Thread nD τ).loc main_arg10) :=
  (show W8 m ρ c (Proc.devRef .tc main_arg10) = W7 m ρ c (Proc.devRef .tc main_arg10) from (by keeps_through hostOps2_1)).trans (W7_arg10 m ρ c)
theorem W9_arg10 (c : Dev nD) : W9 m ρ c (Proc.devRef .tc main_arg10) = m ((c : Thread nD τ).loc main_arg10) :=
  (show W9 m ρ c (Proc.devRef .tc main_arg10) = W8 m ρ c (Proc.devRef .tc main_arg10) from (by keeps_through hostOps2_2)).trans (W8_arg10 m ρ c)
theorem W10_arg10 (c : Dev nD) : W10 m ρ c (Proc.devRef .tc main_arg10) = m ((c : Thread nD τ).loc main_arg10) :=
  (show W10 m ρ c (Proc.devRef .tc main_arg10) = W9 m ρ c (Proc.devRef .tc main_arg10) from (W10_of_ne m ρ c main_arg10 (by decide))).trans (W9_arg10 m ρ c)

end Cert.KernelIdeal.Walk

end
-- ==== Proof.Model.lean ====
/-
  The computation both programs perform, as one composition of whole-array functions of the eleven arguments.

  A graph layer takes the node features `h` (one row per node) and the two ends of every edge: it gathers the rows of
  `h` at each edge's target and source (a negative node number counting from the end), joins the two rows side by
  side, passes every joined row through a two-layer perceptron — a matrix product, a clamp at zero, a second matrix
  product, a clamp at zero, and a division by ten —, adds the resulting messages up at each edge's target node, and
  clamps the sums at zero.  Three such layers (the first on 64 features, the other two on 10) are followed by two
  dense layers, each a matrix product and a clamp at zero.

  The gathers, the joins and the scatter-additions are the same operations in both programs; they are named here once
  and never opened.  Only the perceptrons and the dense layers are computed differently by the two programs (block by
  block on one side, on whole arrays on the other), and those are the functions read index by index elsewhere.
-/
import proofs.«135176_j89558658056596_1_alg».proof.ReferenceIdeal
import Idealize.ShloMosaic.PureOps.Ideal

noncomputable section

namespace Cert.Model

open Idealize.ShloMosaic Cert.ReferenceIdeal

-- the records and shape facts of the printed program are its stated side conditions
variable [Cert.ReferenceIdeal.Facts]
open Cert.ReferenceIdeal.Facts₀ Cert.ReferenceIdeal.Facts

/-- A float array and an integer array of a shape, over any float instance: the functions below are compositions of
    the programs' operations, which every instance has. -/
abbrev FArr (F : FTy → Type) (s : Shape) : Type := FVec F s .f32
abbrev IArr (F : FTy → Type) (s : Shape) : Type := (⟨s, .i32⟩ : BufTy).Contents (Elt F)

variable {F : FTy → Type} [FloatOps F]

/-- The node numbers of the edges' ends as a column, a negative number counting from the end of the node table. -/
def nodeColumn (u : IArr F S1250000) : IArr F S1250000x1 :=
  broadcastInDim S1250000x1 ![0] bcast_S1250000_S1250000x1_0
    (select (cmpi .slt u (broadcastInDim S1250000 ![] bcast_S_S1250000 (constantI S_ 32 0#32)))
      (addi u (broadcastInDim S1250000 ![] bcast_S_S1250000 (constantI S_ 32 100000#32))) u)

/-- Every edge's target row and source row of a 64-feature table, side by side. -/
def edgeRows64 (h : FArr F S100000x64) (src dst : IArr F S1250000) : FArr F S1250000x128 :=
  concatenate S1250000x128 1
    [⟨S1250000x64, Host.gather gather_S100000x64_S1250000x1_S1250000x64_1_0_n_n_0_1_164 h (nodeColumn dst)⟩,
     ⟨S1250000x64, Host.gather gather_S100000x64_S1250000x1_S1250000x64_1_0_n_n_0_1_164 h (nodeColumn src)⟩]
    concatenates_S1250000x64_S1250000x64_S1250000x128_d1

/-- Every edge's target row and source row of a 10-feature table, side by side. -/
def edgeRows10 (h : FArr F S100000x10) (src dst : IArr F S1250000) : FArr F S1250000x20 :=
  concatenate S1250000x20 1
    [⟨S1250000x10, Host.gather gather_S100000x10_S1250000x1_S1250000x10_1_0_n_n_0_1_110 h (nodeColumn dst)⟩,
     ⟨S1250000x10, Host.gather gather_S100000x10_S1250000x1_S1250000x10_1_0_n_n_0_1_110 h (nodeColumn src)⟩]
    concatenates_S1250000x10_S1250000x10_S1250000x20_d1

/-- The messages added up at their target nodes, clamped at zero. -/
def aggregate (msg : FArr F S1250000x10) (dst : IArr F S1250000) : FArr F S100000x10 :=
  maximumf
    (Host.scatterAdd scatter_S100000x10_S1250000x1_S1250000x10_1_0_0_1
      (broadcastInDim S100000x10 ![] bcast_S_S100000x10 (constant S_ .f32 0x00000000#32))
      (broadcastInDim S1250000x1 ![0] bcast_S1250000_S1250000x1_0 dst) msg)
    (broadcastInDim S100000x10 ![] bcast_S_S100000x10 (constant S_ .f32 0x00000000#32))

/-- The edge perceptron on 128 joined features, as the host computes it on the whole edge list. -/
def edgeMlp128 (x : FArr F S1250000x128) (w2 : FArr F S128x10) (w1 : FArr F S10x10) : FArr F S1250000x10 :=
  Host.divf
    (maximumf
      (Host.dotGeneral dot_S1250000x10_S10x10_S1250000x10_1_0_0_1_n_n none
        (maximumf (Host.dotGeneral dot_S1250000x128_S128x10_S1250000x10_1_0_0_1_n_n none x w2)
          (broadcastInDim S1250000x10 ![] bcast_S_S1250000x10 (constant S_ .f32 0x00000000#32))) w1)
      (broadcastInDim S1250000x10 ![] bcast_S_S1250000x10 (constant S_ .f32 0x00000000#32)))
    (broadcastInDim S1250000x10 ![] bcast_S_S1250000x10 (constant S_ .f32 0x41200000#32))

/-- The edge perceptron on 20 joined features. -/
def edgeMlp20 (x : FArr F S1250000x20) (w2 : FArr F S20x10) (w1 : FArr F S10x10) : FArr F S1250000x10 :=
  Host.divf
    (maximumf
      (Host.dotGeneral dot_S1250000x10_S10x10_S1250000x10_1_0_0_1_n_n none
        (maximumf (Host.dotGeneral dot_S1250000x20_S20x10_S1250000x10_1_0_0_1_n_n none x w2)
          (broadcastInDim S1250000x10 ![] bcast_S_S1250000x10 (constant S_ .f32 0x00000000#32))) w1)
      (broadcastInDim S1250000x10 ![] bcast_S_S1250000x10 (constant S_ .f32 0x00000000#32)))
    (broadcastInDim S1250000x10 ![] bcast_S_S1250000x10 (constant S_ .f32 0x41200000#32))

/-- The first dense layer: 10 features to 64, clamped at zero. -/
def dense10 (h : FArr F S100000x10) (w : FArr F S10x64) : FArr F S100000x64 :=
  maximumf (Host.dotGeneral dot_S100000x10_S10x64_S100000x64_1_0_0_1_n_n none h w)
    (broadcastInDim S100000x64 ![] bcast_S_S100000x64 (constant S_ .f32 0x00000000#32))

/-- The second dense layer: 64 features to 64, clamped at zero. -/
def dense64 (h : FArr F S100000x64) (w : FArr F S64x64) : FArr F S100000x64 :=
  maximumf (Host.dotGeneral dot_S100000x64_S64x64_S100000x64_1_0_0_1_n_n none h w)
    (broadcastInDim S100000x64 ![] bcast_S_S100000x64 (constant S_ .f32 0x00000000#32))

/-- The node features after each of the three graph layers. -/
def layer1 (a0 : FArr F S100000x64) (a1 : FArr F S128x10) (a2 : FArr F S10x10) (src dst : IArr F S1250000) : FArr F S100000x10 :=
  aggregate (edgeMlp128 (edgeRows64 a0 src dst) a1 a2) dst
def layer2 (h : FArr F S100000x10) (a3 : FArr F S20x10) (a4 : FArr F S10x10) (src dst : IArr F S1250000) : FArr F S100000x10 :=
  aggregate (edgeMlp20 (edgeRows10 h src dst) a3 a4) dst

/-- The whole computation. -/
def model (a0 : FArr F S100000x64) (a1 : FArr F S128x10) (a2 : FArr F S10x10) (a3 : FArr F S20x10) (a4 : FArr F S10x10)
    (a5 : FArr F S20x10) (a6 : FArr F S10x10) (a7 : FArr F S10x64) (a8 : FArr F S64x64) (src dst : IArr F S1250000) : FArr F S100000x64 :=
  dense64 (dense10 (layer2 (layer2 (layer1 a0 a1 a2 src dst) a3 a4 src dst) a5 a6 src dst) a7) a8

end Cert.Model

end
-- ==== Proof.Stretches.lean ====
/-
  Each stretch of host operations of the kernel program as one function of the buffer contents before it.

  The first stretch joins every edge's two feature rows; a stretch between two graph layers adds the previous layer's
  messages up at their target nodes, clamps at zero, and joins every edge's two rows of the new features; the last
  stretch adds up and clamps.  These are the model's named functions applied to the contents the stretch starts from:
  the stretch's operations, composed in program order, spell the same terms.  The equations hold over any float
  instance, where the operations are closed terms.
-/
import proofs.«135176_j89558658056596_1_alg».proof.Proof.Gen.KernelIdeal.Frame
import proofs.«135176_j89558658056596_1_alg».proof.Proof.Gen.ReferenceIdeal
import proofs.«135176_j89558658056596_1_alg».proof.Proof.Model
import Idealize.ShloMosaic.Lib.StableHlo.Run

set_option maxRecDepth 16384

noncomputable section

namespace Cert.KernelIdeal.Chain

open Cert.KernelIdeal Cert.KernelIdeal.Gen Cert.Model
open Idealize.ShloMosaic Idealize.ShloMosaic.TcCoe Idealize.SL.Sem Idealize.ShloMosaic.StableHlo

section Stretches
variable {F : FTy → Type} [FloatOps F] [Named F]

set_option maxHeartbeats 8000000 in
/-- The first stretch leaves every edge's target and source rows of the 64-feature table side by side. -/
theorem stretch0 (W : Valuation τ sig (Elt F)) :
    StableHlo.after hostOps0 W (Proc.devRef .tc main_v14)
      = edgeRows64 (W (Proc.devRef .tc main_arg0)) (W (Proc.devRef .tc main_arg9)) (W (Proc.devRef .tc main_arg10)) := by
  dsimp only [hostOps0]; after_results; rfl

set_option maxHeartbeats 8000000 in
/-- The stretch after launch 0: the messages added up at their targets and clamped, then every edge's two rows joined. -/
theorem stretch1 (W : Valuation τ sig (Elt F)) :
    StableHlo.after hostOps1_2 (StableHlo.after hostOps1_1 (StableHlo.after hostOps1 W)) (Proc.devRef .tc main_v34)
      = edgeRows10 (aggregate (W (Proc.devRef .tc main_v15)) (W (Proc.devRef .tc main_arg10))) (W (Proc.devRef .tc main_arg9)) (W (Proc.devRef .tc main_arg10)) := by
  dsimp only [hostOps1, hostOps1_1, hostOps1_2]; after_results; rfl

set_option maxHeartbeats 8000000 in
/-- The stretch after launch 1, likewise. -/
theorem stretch2 (W : Valuation τ sig (Elt F)) :
    StableHlo.after hostOps2_2 (StableHlo.after hostOps2_1 (StableHlo.after hostOps2 W)) (Proc.devRef .tc main_v54)
      = edgeRows10 (aggregate (W (Proc.devRef .tc main_v35)) (W (Proc.devRef .tc main_arg10))) (W (Proc.devRef .tc main_arg9)) (W (Proc.devRef .tc main_arg10)) := by
  dsimp only [hostOps2, hostOps2_1, hostOps2_2]; after_results; rfl

/-- The stretch after launch 2: the messages added up at their targets and clamped. -/
theorem stretch3 (W : Valuation τ sig (Elt F)) :
    StableHlo.after hostOps3_1 (StableHlo.after hostOps3 W) (Proc.devRef .tc main_v59)
      = aggregate (W (Proc.devRef .tc main_v55)) (W (Proc.devRef .tc main_arg10)) := by
  dsimp only [hostOps3, hostOps3_1]; after_results; rfl

end Stretches

end Cert.KernelIdeal.Chain

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.Entries.lean ====
/-
  One entry of each layer's output as a function of one row of its input.

  An edge's message has ten entries; entry `q` is computed from the edge's joined feature row alone: the row times the
  first weight matrix, clamped at zero, times column `q` of the second weight matrix, clamped at zero, times one tenth.
  A dense layer's entry is the node's row times a column of the weight matrix, clamped at zero.  The clamp's zero is kept
  as the float word both programs spell; it is never evaluated.
-/
import Idealize.ShloMosaic.PureOps.Ideal

noncomputable section

namespace Cert.Entries

open Idealize.ShloMosaic

/-- The float zero both programs clamp against, as an extended real. -/
abbrev zeroWord : EReal := Ideal.ofBits .f32 0x00000000#32

/-- Entry `q` of an edge's message from the edge's joined row of `K` features. -/
def mlpEntry {K : ℕ} (row : Fin K → EReal) (w2 : Fin K → Fin 10 → EReal) (w1 : Fin 10 → Fin 10 → EReal) (q : Fin 10) : EReal :=
  max (∑ k : Fin 10, max (∑ j : Fin K, row j * w2 j k) zeroWord * w1 k q) zeroWord * ((1 / 10 : ℝ) : EReal)

/-- An entry of a dense layer's output from the node's row of `K` features and one column of the weights. -/
def denseEntry {K : ℕ} (row : Fin K → EReal) (col : Fin K → EReal) : EReal :=
  max (∑ j : Fin K, row j * col j) zeroWord

end Cert.Entries

end
-- ==== Proof.PayIdx.lean ====
/-
  What each kernel launch stores, read at an index: entry `(r, q)` of the stored block is the layer's entry function of
  row `r` of the loaded block.  A kernel matmul into the zero accumulator is the sum over the contracted coordinate;
  rounding to bfloat16 on the way into a matmul is the identity on the extended reals; the clamp acts entry by entry; the
  named constant `inv_10` denotes the rational one tenth.
-/
import proofs.«135176_j89558658056596_1_alg».proof.Proof.Gen.KernelIdeal.Skeleton
import proofs.«135176_j89558658056596_1_alg».proof.Proof.LibRowOps
import proofs.«135176_j89558658056596_1_alg».proof.Proof.Entries
import Idealize.ShloMosaic.PureOps.IdealRules
import Idealize.ShloMosaic.Lib.ValueIdx
import Idealize.ShloMosaic.Lib.Pipeline.Value

noncomputable section

namespace Cert.KernelIdeal.PayIdx

open Idealize.ShloMosaic Idealize.ShloMosaic.ValueIdx Cert.KernelIdeal Cert.KernelIdeal.Gen Cert.Entries

/-- The named reciprocal denotes the rational one tenth, by the certificate's table of named constants. -/
theorem inv_ten : Named.named (F := Ideal) Cert.KernelIdeal.κ "inv_10" (φ := .f32) 0x3DCCCCCD#32 = ((1 / 10 : ℝ) : EReal) :=
  IdealRules.named_const.ideal_named_scalar _ _ _ _ rfl

/-! The five kernel matmuls, each into the zero accumulator, as the sum over the contracted coordinate. -/

theorem mm128_apply (A : FVec Ideal S5000x128 .bf16) (B : FVec Ideal S128x10 .bf16) (r : Fin 5000) (c : Fin 10) :
    matmul dot_S5000x128_S128x10_S5000x10_1_0_0_1_n_n none A B (constant (F := Ideal) S5000x10 .f32 0x00000000#32) (ix2 r c)
      = ∑ i : Fin 128, A (ix2 r i) * B (ix2 i c) :=
  Cert.KernelBody.matmul_plain_zero_apply dot_S5000x128_S128x10_S5000x10_1_0_0_1_n_n.wf none A B r c

theorem mm20_apply (A : FVec Ideal S5000x20 .bf16) (B : FVec Ideal S20x10 .bf16) (r : Fin 5000) (c : Fin 10) :
    matmul dot_S5000x20_S20x10_S5000x10_1_0_0_1_n_n none A B (constant (F := Ideal) S5000x10 .f32 0x00000000#32) (ix2 r c)
      = ∑ i : Fin 20, A (ix2 r i) * B (ix2 i c) :=
  Cert.KernelBody.matmul_plain_zero_apply dot_S5000x20_S20x10_S5000x10_1_0_0_1_n_n.wf none A B r c

theorem mmH_apply (A : FVec Ideal S5000x10 .bf16) (B : FVec Ideal S10x10 .bf16) (r : Fin 5000) (c : Fin 10) :
    matmul dot_S5000x10_S10x10_S5000x10_1_0_0_1_n_n none A B (constant (F := Ideal) S5000x10 .f32 0x00000000#32) (ix2 r c)
      = ∑ i : Fin 10, A (ix2 r i) * B (ix2 i c) :=
  Cert.KernelBody.matmul_plain_zero_apply dot_S5000x10_S10x10_S5000x10_1_0_0_1_n_n.wf none A B r c

theorem mmD10_apply (A : FVec Ideal S5000x10 .bf16) (B : FVec Ideal S10x64 .bf16) (r : Fin 5000) (c : Fin 64) :
    matmul dot_S5000x10_S10x64_S5000x64_1_0_0_1_n_n none A B (constant (F := Ideal) S5000x64 .f32 0x00000000#32) (ix2 r c)
      = ∑ i : Fin 10, A (ix2 r i) * B (ix2 i c) :=
  Cert.KernelBody.matmul_plain_zero_apply dot_S5000x10_S10x64_S5000x64_1_0_0_1_n_n.wf none A B r c

theorem mmD64_apply (A : FVec Ideal S5000x64 .bf16) (B : FVec Ideal S64x64 .bf16) (r : Fin 5000) (c : Fin 64) :
    matmul dot_S5000x64_S64x64_S5000x64_1_0_0_1_n_n none A B (constant (F := Ideal) S5000x64 .f32 0x00000000#32) (ix2 r c)
      = ∑ i : Fin 64, A (ix2 r i) * B (ix2 i c) :=
  Cert.KernelBody.matmul_plain_zero_apply dot_S5000x64_S64x64_S5000x64_1_0_0_1_n_n.wf none A B r c

/-- Entry `(r, q)` of launch 0's stored block is the message entry of row `r` of the loaded feature block. -/
theorem pay0_apply (x0 : Vec Ideal S5000x128 .f32) (x1 : Vec Ideal S128x10 .f32) (x2 : Vec Ideal S10x10 .f32) (r : Fin 5000) (q : Fin 10) :
    k0_pay1 (F := Ideal) x0 x1 x2 (ix2 r q)
      = mlpEntry (fun j => x0 (ix2 r j)) (fun j k => x1 (ix2 j k)) (fun k c => x2 (ix2 k c)) q := by
  unfold k0_pay1 mlpEntry
  simp only [mulf_apply, maximumf_apply, broadcast_apply]
  rw [mmH_apply, inv_ten]
  simp only [truncf_apply, maximumf_apply, broadcast_apply, mm128_apply, shapeCast_self]
  rfl

/-- Entry `(r, q)` of launch 1's stored block is the message entry of row `r` of the loaded feature block. -/
theorem pay1_apply (x0 : Vec Ideal S5000x20 .f32) (x1 : Vec Ideal S20x10 .f32) (x2 : Vec Ideal S10x10 .f32) (r : Fin 5000) (q : Fin 10) :
    k1_pay1 (F := Ideal) x0 x1 x2 (ix2 r q)
      = mlpEntry (fun j => x0 (ix2 r j)) (fun j k => x1 (ix2 j k)) (fun k c => x2 (ix2 k c)) q := by
  unfold k1_pay1 mlpEntry
  simp only [mulf_apply, maximumf_apply, broadcast_apply]
  rw [mmH_apply, inv_ten]
  simp only [truncf_apply, maximumf_apply, broadcast_apply, mm20_apply, shapeCast_self]
  rfl

/-- Entry `(r, q)` of launch 2's stored block is the message entry of row `r` of the loaded feature block. -/
theorem pay2_apply (x0 : Vec Ideal S5000x20 .f32) (x1 : Vec Ideal S20x10 .f32) (x2 : Vec Ideal S10x10 .f32) (r : Fin 5000) (q : Fin 10) :
    k2_pay1 (F := Ideal) x0 x1 x2 (ix2 r q)
      = mlpEntry (fun j => x0 (ix2 r j)) (fun j k => x1 (ix2 j k)) (fun k c => x2 (ix2 k c)) q := by
  unfold k2_pay1 mlpEntry
  simp only [mulf_apply, maximumf_apply, broadcast_apply]
  rw [mmH_apply, inv_ten]
  simp only [truncf_apply, maximumf_apply, broadcast_apply, mm20_apply, shapeCast_self]
  rfl

/-- Entry `(r, q)` of launch 3's stored block is the dense entry of row `r` of the loaded block and column `q` of the weights. -/
theorem pay3_apply (x0 : Vec Ideal S5000x10 .f32) (x1 : Vec Ideal S10x64 .f32) (r : Fin 5000) (q : Fin 64) :
    k3_pay1 (F := Ideal) x0 x1 (ix2 r q) = denseEntry (fun j => x0 (ix2 r j)) (fun j => x1 (ix2 j q)) := by
  unfold k3_pay1 denseEntry
  simp only [maximumf_apply, broadcast_apply]
  rw [mmD10_apply]
  simp only [truncf_apply, shapeCast_self]
  rfl

/-- Entry `(r, q)` of launch 4's stored block is the dense entry of row `r` of the loaded block and column `q` of the weights. -/
theorem pay4_apply (x0 : Vec Ideal S5000x64 .f32) (x1 : Vec Ideal S64x64 .f32) (r : Fin 5000) (q : Fin 64) :
    k4_pay1 (F := Ideal) x0 x1 (ix2 r q) = denseEntry (fun j => x0 (ix2 r j)) (fun j => x1 (ix2 j q)) := by
  unfold k4_pay1 denseEntry
  simp only [maximumf_apply, broadcast_apply]
  rw [mmD64_apply]
  simp only [truncf_apply, shapeCast_self]
  rfl

end Cert.KernelIdeal.PayIdx

end
-- ==== Proof.LibHostDot.lean ====
/-
  The host's matrix product read at an index, and two facts about the extended reals that meet it: the product
  of an [m, k] by a [k, n] matrix (the left operand's axis 1 contracted with the right operand's axis 0), computed
  by the host's dot_general, is at (r, c) the sum over the contracted coordinate of the products of the entries —
  the same sum a zero-accumulated kernel matmul gives.  A quotient by a nonzero real is the product with its
  reciprocal on every extended real, which is how a kernel's folded reciprocal meets a reference's division.
-/
import Idealize.ShloMosaic.Lib.Pipeline.Value
import Idealize.ShloMosaic.Lib.ValueIdx
import Idealize.ShloMosaic.PureOps.Ideal.Laws

noncomputable section

namespace Cert.HostBody

open Idealize.ShloMosaic Idealize.ShloMosaic.ValueIdx

/-- The host's product of an m×k by a k×n matrix, read at `(r, c)`, is the sum over the contracted coordinate of
    the products of the entries.  `w` is the record's well-formedness, which a program states. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The word of the float `10.0` denotes the real number ten. -/
theorem ofBits_ten : Ideal.ofBits .f32 0x41200000#32 = ((10 : ℝ) : EReal) := by
  simp [Ideal.ofBits, Ideal.ieee, -EReal.coe_mul]; norm_num

/-- Dividing by the float ten is multiplying by the rational one tenth, on every extended real. -/
theorem div_ten (x : EReal) : Ideal.div x (Ideal.ofBits .f32 0x41200000#32) = x * ((1 / 10 : ℝ) : EReal) := by
  rw [ofBits_ten]; exact Ideal.div_coe (by norm_num) x

end Cert.HostBody

end
-- ==== Proof.LayerIdx.lean ====
/-
  The model's perceptrons and dense layers read at an index: on the whole edge list (or node table) entry `(e, q)` of
  the output is the entry function of row `e` of the input.  The host's matrix products are sums over the contracted
  coordinate; the clamp and the division act entry by entry; the division by the float ten is the product with the
  rational one tenth on every extended real.
-/
import proofs.«135176_j89558658056596_1_alg».proof.Proof.Model
import proofs.«135176_j89558658056596_1_alg».proof.Proof.Entries
import proofs.«135176_j89558658056596_1_alg».proof.Proof.LibHostDot
import Idealize.ShloMosaic.Lib.ValueIdx
import Idealize.ShloMosaic.Lib.Pipeline.Value

noncomputable section

namespace Cert.Model

open Idealize.ShloMosaic Idealize.ShloMosaic.ValueIdx Cert.ReferenceIdeal Cert.Entries

variable [Cert.ReferenceIdeal.Facts]
open Cert.ReferenceIdeal.Facts₀ Cert.ReferenceIdeal.Facts

/-- A scalar float constant broadcast over a shape reads at every index as the constant's value. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  (broadcastInDim_apply _ h _ i (fun a => a.elim0) (fun a => a.elim0)).trans rfl

/-! The four host products of the model, each as the sum over its contracted coordinate. -/

theorem dot128_apply (A : FArr Ideal S1250000x128) (B : FArr Ideal S128x10) (r : Fin 1250000) (c : Fin 10) :
    Host.dotGeneral dot_S1250000x128_S128x10_S1250000x10_1_0_0_1_n_n none A B (ix2 r c) = ∑ i : Fin 128, A (ix2 r i) * B (ix2 i c) :=
  Cert.HostBody.dotGeneral_plain_apply dot_S1250000x128_S128x10_S1250000x10_1_0_0_1_n_n.wf none A B r c

theorem dot20_apply (A : FArr Ideal S1250000x20) (B : FArr Ideal S20x10) (r : Fin 1250000) (c : Fin 10) :
    Host.dotGeneral dot_S1250000x20_S20x10_S1250000x10_1_0_0_1_n_n none A B (ix2 r c) = ∑ i : Fin 20, A (ix2 r i) * B (ix2 i c) :=
  Cert.HostBody.dotGeneral_plain_apply dot_S1250000x20_S20x10_S1250000x10_1_0_0_1_n_n.wf none A B r c

theorem dot10_apply (A : FArr Ideal S1250000x10) (B : FArr Ideal S10x10) (r : Fin 1250000) (c : Fin 10) :
    Host.dotGeneral dot_S1250000x10_S10x10_S1250000x10_1_0_0_1_n_n none A B (ix2 r c) = ∑ i : Fin 10, A (ix2 r i) * B (ix2 i c) :=
  Cert.HostBody.dotGeneral_plain_apply dot_S1250000x10_S10x10_S1250000x10_1_0_0_1_n_n.wf none A B r c

theorem dotN10_apply (A : FArr Ideal S100000x10) (B : FArr Ideal S10x64) (r : Fin 100000) (c : Fin 64) :
    Host.dotGeneral dot_S100000x10_S10x64_S100000x64_1_0_0_1_n_n none A B (ix2 r c) = ∑ i : Fin 10, A (ix2 r i) * B (ix2 i c) :=
  Cert.HostBody.dotGeneral_plain_apply dot_S100000x10_S10x64_S100000x64_1_0_0_1_n_n.wf none A B r c

theorem dotN64_apply (A : FArr Ideal S100000x64) (B : FArr Ideal S64x64) (r : Fin 100000) (c : Fin 64) :
    Host.dotGeneral dot_S100000x64_S64x64_S100000x64_1_0_0_1_n_n none A B (ix2 r c) = ∑ i : Fin 64, A (ix2 r i) * B (ix2 i c) :=
  Cert.HostBody.dotGeneral_plain_apply dot_S100000x64_S64x64_S100000x64_1_0_0_1_n_n.wf none A B r c

/-- Entry `(e, q)` of the 128-feature perceptron's output is the message entry of edge `e`'s joined row. -/
theorem edgeMlp128_apply (x : FArr Ideal S1250000x128) (w2 : FArr Ideal S128x10) (w1 : FArr Ideal S10x10) (e : Fin 1250000) (q : Fin 10) :
    edgeMlp128 x w2 w1 (ix2 e q)
      = mlpEntry (fun j => x (ix2 e j)) (fun j k => w2 (ix2 j k)) (fun k c => w1 (ix2 k c)) q := by
  unfold edgeMlp128 mlpEntry
  show Ideal.div (max (Host.dotGeneral _ none _ w1 (ix2 e q)) (broadcastInDim _ _ _ _ (ix2 e q))) (broadcastInDim _ _ _ _ (ix2 e q)) = _
  rw [splat_apply, splat_apply, Cert.HostBody.div_ten, dot10_apply]
  refine congrArg (· * _) (congrArg (max · _) (Finset.sum_congr rfl fun k _ => congrArg (· * _) ?_))
  show max (Host.dotGeneral _ none x w2 (ix2 e k)) (broadcastInDim _ _ _ _ (ix2 e k)) = _
  rw [splat_apply, dot128_apply]

/-- Entry `(e, q)` of the 20-feature perceptron's output is the message entry of edge `e`'s joined row. -/
theorem edgeMlp20_apply (x : FArr Ideal S1250000x20) (w2 : FArr Ideal S20x10) (w1 : FArr Ideal S10x10) (e : Fin 1250000) (q : Fin 10) :
    edgeMlp20 x w2 w1 (ix2 e q)
      = mlpEntry (fun j => x (ix2 e j)) (fun j k => w2 (ix2 j k)) (fun k c => w1 (ix2 k c)) q := by
  unfold edgeMlp20 mlpEntry
  show Ideal.div (max (Host.dotGeneral _ none _ w1 (ix2 e q)) (broadcastInDim _ _ _ _ (ix2 e q))) (broadcastInDim _ _ _ _ (ix2 e q)) = _
  rw [splat_apply, splat_apply, Cert.HostBody.div_ten, dot10_apply]
  refine congrArg (· * _) (congrArg (max · _) (Finset.sum_congr rfl fun k _ => congrArg (· * _) ?_))
  show max (Host.dotGeneral _ none x w2 (ix2 e k)) (broadcastInDim _ _ _ _ (ix2 e k)) = _
  rw [splat_apply, dot20_apply]

/-- Entry `(n, q)` of the first dense layer is the dense entry of node `n`'s row and column `q` of the weights. -/
theorem dense10_apply (h : FArr Ideal S100000x10) (w : FArr Ideal S10x64) (n : Fin 100000) (q : Fin 64) :
    dense10 h w (ix2 n q) = denseEntry (fun j => h (ix2 n j)) (fun j => w (ix2 j q)) := by
  unfold dense10 denseEntry
  show max (Host.dotGeneral _ none h w (ix2 n q)) (broadcastInDim _ _ _ _ (ix2 n q)) = _
  rw [splat_apply, dotN10_apply]

/-- Entry `(n, q)` of the second dense layer is the dense entry of node `n`'s row and column `q` of the weights. -/
theorem dense64_apply (h : FArr Ideal S100000x64) (w : FArr Ideal S64x64) (n : Fin 100000) (q : Fin 64) :
    dense64 h w (ix2 n q) = denseEntry (fun j => h (ix2 n j)) (fun j => w (ix2 j q)) := by
  unfold dense64 denseEntry
  show max (Host.dotGeneral _ none h w (ix2 n q)) (broadcastInDim _ _ _ _ (ix2 n q)) = _
  rw [splat_apply, dotN64_apply]

end Cert.Model

end
-- ==== Proof.Launch0.lean ====
/-
  Launch 0: the output array after the grid's write-backs is the 128-feature edge perceptron of the arrays the launch finds.

  The grid has 250 points; point `t` loads rows `5000 t … 5000 t + 4999` of the feature array and the whole weight
  matrices, and writes back rows `5000 t … 5000 t + 4999` of the output.  Entry `(r, q)` of what point `t` writes is the
  layer's entry function of row `r` of its feature block, which is row `5000 t + r` of the feature array — exactly the
  layer's entry `(5000 t + r, q)` on the whole array.  The 250 row blocks tile the output: row `n` is in block `n / 5000`.
-/
import proofs.«135176_j89558658056596_1_alg».proof.Proof.Gen.KernelIdeal.Frame
import proofs.«135176_j89558658056596_1_alg».proof.Proof.PayIdx
import proofs.«135176_j89558658056596_1_alg».proof.Proof.LayerIdx
import proofs.«135176_j89558658056596_1_alg».proof.Proof.Gen.ReferenceIdeal
import Idealize.ShloMosaic.Lib.Pipeline.Value
import Idealize.ShloMosaic.Lib.ValueIdx

set_option maxRecDepth 16384

noncomputable section

namespace Cert.KernelIdeal.Launch0

open Idealize.ShloMosaic Idealize.ShloMosaic.TcCoe Idealize.ShloMosaic.ValueIdx Idealize.SL.Sem
open Cert.KernelIdeal Cert.KernelIdeal.Gen Cert.Entries Cert.Model
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the output window are at row block `t`, the weights
    at the one block there is. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of point `t`'s feature block is row `5000 t + r` of the feature array. -/
theorem read_rows (c : Dev nD) (t : Fin cfg0.N) (r : Fin 5000) (j : Fin 128) :
    iblk0 V c 0 t (ix2 r j)
      = (V c main_v14 : S1250000x128.Idx → EReal) (ix2 (⟨5000 * t.val + r.val, by have := t.isLt; have hN : cfg0.N = 250 := N_0; omega⟩ : Fin 1250000) j) := by
  show V c main_v14 (((cfg0.win 0).blk t).view.emb (ix2 r j)) = _
  refine congrArg _ (funext fun ax => Fin.ext ?_)
  match ax with
  | ⟨0, _⟩ => show win0_0.index t (0 : Fin 2) * 5000 + 1 * r.val = 5000 * t.val + r.val; rw [(idx_facts t).1]; omega
  | ⟨1, _⟩ => show win0_0.index t (1 : Fin 2) * 128 + 1 * j.val = j.val; rw [(idx_facts t).2.1]; omega

/-- The weight matrix is one block, the whole array. -/
theorem read_w (c : Dev nD) (t : Fin cfg0.N) (a : Fin 128) (b : Fin 10) :
    iblk0 V c 1 t (ix2 a b) = (V c main_arg1 : S128x10.Idx → EReal) (ix2 a b) := by
  show V c main_arg1 (((cfg0.win 1).blk t).view.emb (ix2 a b)) = _
  refine congrArg _ (funext fun ax => Fin.ext ?_)
  match ax with
  | ⟨0, _⟩ => show win0_1.index t (0 : Fin 2) * 128 + 1 * a.val = a.val; rw [(idx_facts t).2.2.1]; omega
  | ⟨1, _⟩ => show win0_1.index t (1 : Fin 2) * 10 + 1 * b.val = b.val; rw [(idx_facts t).2.2.2.1]; omega

/-- The second weight matrix is one block, the whole array. -/
theorem read_w1 (c : Dev nD) (t : Fin cfg0.N) (a b : Fin 10) :
    iblk0 V c 2 t (ix2 a b) = (V c main_arg2 : S10x10.Idx → EReal) (ix2 a b) := by
  show V c main_arg2 (((cfg0.win 2).blk t).view.emb (ix2 a b)) = _
  refine congrArg _ (funext fun ax => Fin.ext ?_)
  match ax with
  | ⟨0, _⟩ => show win0_2.index t (0 : Fin 2) * 10 + 1 * a.val = a.val; rw [(idx_facts t).2.2.2.2.1]; omega
  | ⟨1, _⟩ => show win0_2.index t (1 : Fin 2) * 10 + 1 * b.val = b.val; rw [(idx_facts t).2.2.2.2.2.1]; omega

/-- What point `t` writes back is block `t` of the layer's output on the whole arrays. -/
theorem flushed_eq (c : Dev nD) (t : Fin cfg0.N) :
    (dat0 V c).flushed 3 t = ((cfg0.win 3).blk t).view.read (Elt Ideal) (edgeMlp128 (F := Ideal) (V c main_v14) (V c main_arg1) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x10) hz, View.ld_unit_zero (S := S10x10) hz]
  funext y
  obtain ⟨r, q, rfl⟩ : ∃ (r : Fin 5000) (q : Fin 10), y = ix2 r q := ⟨y 0, y 1, eq_ix2 y⟩
  have hN : cfg0.N = 250 := N_0
  have ht : t.val < 250 := hN ▸ t.isLt
  have he : ((cfg0.win 3).blk t).view.emb (ix2 r q)
      = ix2 (⟨5000 * t.val + r.val, by omega⟩ : Fin 1250000) q := by
    funext ax; apply Fin.ext
    match ax with
    | ⟨0, _⟩ => show win0_3.index t (0 : Fin 2) * 5000 + 1 * r.val = 5000 * t.val + r.val; rw [(idx_facts t).2.2.2.2.2.2.1]; omega
    | ⟨1, _⟩ => show win0_3.index t (1 : Fin 2) * 10 + 1 * q.val = q.val; rw [(idx_facts t).2.2.2.2.2.2.2]; omega
  show k0_pay1 (iblk0 V c 0 t) (iblk0 V c 1 t) (iblk0 V c 2 t) (ix2 r q)
      = (edgeMlp128 (F := Ideal) (V c main_v14) (V c main_arg1) (V c main_arg2)) (((cfg0.win 3).blk t).view.emb (ix2 r q))
  rw [he, Cert.Model.edgeMlp128_apply]
  refine (Cert.KernelIdeal.PayIdx.pay0_apply (iblk0 V c 0 t) (iblk0 V c 1 t) (iblk0 V c 2 t) r q).trans ?_
  simp only [read_rows V c t, read_w V c t, read_w1 V c t]

/-- Every row of the output is in the block of the point `row / 5000`. -/
theorem covered (i : S1250000x10.Idx) :
    ∃ t : Fin cfg0.N, (cfg0.win 3).flush t = true ∧ i ∈ ((cfg0.win 3).blk t).view.set := by
  have hN : cfg0.N = 250 := N_0
  have hi0 : (i 0).val < 1250000 := (i 0).isLt
  have hi1 : (i 1).val < 10 := (i 1).isLt
  let t : Fin cfg0.N := ⟨(i 0).val / 5000, by rw [hN]; omega⟩
  refine ⟨t, flush0_3 t, ?_⟩
  show i ∈ ((View.whole main_v15).slice (win0_3.rect t)).set
  rw [View.set_slice_whole, Rect.mem_set_unit]
  have e0 : win0_3.index t (0 : Fin 2) = (i 0).val / 5000 := (idx_facts t).2.2.2.2.2.2.1
  have e1 : win0_3.index t (1 : Fin 2) = 0 := (idx_facts t).2.2.2.2.2.2.2
  intro ax
  match ax with
  | ⟨0, _⟩ => show win0_3.index t (0 : Fin 2) * 5000 ≤ (i 0).val ∧ (i 0).val < win0_3.index t (0 : Fin 2) * 5000 + 5000; omega
  | ⟨1, _⟩ => show win0_3.index t (1 : Fin 2) * 10 ≤ (i 1).val ∧ (i 1).val < win0_3.index t (1 : Fin 2) * 10 + 10; omega

/-- The output array after the launch. -/
theorem final (c : Dev nD) : (dat0 V c).arrAt 3 cfg0.N = edgeMlp128 (F := Ideal) (V c main_v14) (V c main_arg1) (V c main_arg2) :=
  (dat0 V c).arrAt_eq_of_cover 3 (edgeMlp128 (F := Ideal) (V c main_v14) (V c main_arg1) (V c main_arg2)) (fun t _ => flushed_eq V c t) (covered)

end Cert.KernelIdeal.Launch0

end
-- ==== Proof.Launch1.lean ====
/-
  Launch 1: the output array after the grid's write-backs is the 20-feature edge perceptron of the arrays the launch finds.

  The grid has 250 points; point `t` loads rows `5000 t … 5000 t + 4999` of the feature array and the whole weight
  matrices, and writes back rows `5000 t … 5000 t + 4999` of the output.  Entry `(r, q)` of what point `t` writes is the
  layer's entry function of row `r` of its feature block, which is row `5000 t + r` of the feature array — exactly the
  layer's entry `(5000 t + r, q)` on the whole array.  The 250 row blocks tile the output: row `n` is in block `n / 5000`.
-/
import proofs.«135176_j89558658056596_1_alg».proof.Proof.Gen.KernelIdeal.Frame
import proofs.«135176_j89558658056596_1_alg».proof.Proof.PayIdx
import proofs.«135176_j89558658056596_1_alg».proof.Proof.LayerIdx
import proofs.«135176_j89558658056596_1_alg».proof.Proof.Gen.ReferenceIdeal
import Idealize.ShloMosaic.Lib.Pipeline.Value
import Idealize.ShloMosaic.Lib.ValueIdx

set_option maxRecDepth 16384

noncomputable section

namespace Cert.KernelIdeal.Launch1

open Idealize.ShloMosaic Idealize.ShloMosaic.TcCoe Idealize.ShloMosaic.ValueIdx Idealize.SL.Sem
open Cert.KernelIdeal Cert.KernelIdeal.Gen Cert.Entries Cert.Model
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the output window are at row block `t`, the weights
    at the one block there is. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `r` of point `t`'s feature block is row `5000 t + r` of the feature array. -/
theorem read_rows (c : Dev nD) (t : Fin cfg1.N) (r : Fin 5000) (j : Fin 20) :
    iblk1 V c 0 t (ix2 r j)
      = (V c main_v34 : S1250000x20.Idx → EReal) (ix2 (⟨5000 * t.val + r.val, by have := t.isLt; have hN : cfg1.N = 250 := N_1; omega⟩ : Fin 1250000) j) := by
  show V c main_v34 (((cfg1.win 0).blk t).view.emb (ix2 r j)) = _
  refine congrArg _ (funext fun ax => Fin.ext ?_)
  match ax with
  | ⟨0, _⟩ => show win1_0.index t (0 : Fin 2) * 5000 + 1 * r.val = 5000 * t.val + r.val; rw [(idx_facts t).1]; omega
  | ⟨1, _⟩ => show win1_0.index t (1 : Fin 2) * 20 + 1 * j.val = j.val; rw [(idx_facts t).2.1]; omega

/-- The weight matrix is one block, the whole array. -/
theorem read_w (c : Dev nD) (t : Fin cfg1.N) (a : Fin 20) (b : Fin 10) :
    iblk1 V c 1 t (ix2 a b) = (V c main_arg3 : S20x10.Idx → EReal) (ix2 a b) := by
  show V c main_arg3 (((cfg1.win 1).blk t).view.emb (ix2 a b)) = _
  refine congrArg _ (funext fun ax => Fin.ext ?_)
  match ax with
  | ⟨0, _⟩ => show win1_1.index t (0 : Fin 2) * 20 + 1 * a.val = a.val; rw [(idx_facts t).2.2.1]; omega
  | ⟨1, _⟩ => show win1_1.index t (1 : Fin 2) * 10 + 1 * b.val = b.val; rw [(idx_facts t).2.2.2.1]; omega

/-- The second weight matrix is one block, the whole array. -/
theorem read_w1 (c : Dev nD) (t : Fin cfg1.N) (a b : Fin 10) :
    iblk1 V c 2 t (ix2 a b) = (V c main_arg4 : S10x10.Idx → EReal) (ix2 a b) := by
  show V c main_arg4 (((cfg1.win 2).blk t).view.emb (ix2 a b)) = _
  refine congrArg _ (funext fun ax => Fin.ext ?_)
  match ax with
  | ⟨0, _⟩ => show win1_2.index t (0 : Fin 2) * 10 + 1 * a.val = a.val; rw [(idx_facts t).2.2.2.2.1]; omega
  | ⟨1, _⟩ => show win1_2.index t (1 : Fin 2) * 10 + 1 * b.val = b.val; rw [(idx_facts t).2.2.2.2.2.1]; omega

/-- What point `t` writes back is block `t` of the layer's output on the whole arrays. -/
theorem flushed_eq (c : Dev nD) (t : Fin cfg1.N) :
    (dat1 V c).flushed 3 t = ((cfg1.win 3).blk t).view.read (Elt Ideal) (edgeMlp20 (F := Ideal) (V c main_v34) (V c main_arg3) (V c main_arg4)) := by
  show (cfg1.win 3).cut (grid1.coords t) ((dat1 V c).after 3 t) = _
  rw [after1_3]
  unfold out1_3
  rw [View.canon_unit_zero hz]
  simp only [View.ld_unit_zero (S := S5000x20) hz, View.ld_unit_zero (S := S20x10) hz, View.ld_unit_zero (S := S10x10) hz]
  funext y
  obtain ⟨r, q, rfl⟩ : ∃ (r : Fin 5000) (q : Fin 10), y = ix2 r q := ⟨y 0, y 1, eq_ix2 y⟩
  have hN : cfg1.N = 250 := N_1
  have ht : t.val < 250 := hN ▸ t.isLt
  have he : ((cfg1.win 3).blk t).view.emb (ix2 r q)
      = ix2 (⟨5000 * t.val + r.val, by omega⟩ : Fin 1250000) q := by
    funext ax; apply Fin.ext
    match ax with
    | ⟨0, _⟩ => show win1_3.index t (0 : Fin 2) * 5000 + 1 * r.val = 5000 * t.val + r.val; rw [(idx_facts t).2.2.2.2.2.2.1]; omega
    | ⟨1, _⟩ => show win1_3.index t (1 : Fin 2) * 10 + 1 * q.val = q.val; rw [(idx_facts t).2.2.2.2.2.2.2]; omega
  show k1_pay1 (iblk1 V c 0 t) (iblk1 V c 1 t) (iblk1 V c 2 t) (ix2 r q)
      = (edgeMlp20 (F := Ideal) (V c main_v34) (V c main_arg3) (V c main_arg4)) (((cfg1.win 3).blk t).view.emb (ix2 r q))
  rw [he, Cert.Model.edgeMlp20_apply]
  refine (Cert.KernelIdeal.PayIdx.pay1_apply (iblk1 V c 0 t) (iblk1 V c 1 t) (iblk1 V c 2 t) r q).trans ?_
  simp only [read_rows V c t, read_w V c t, read_w1 V c t]

/-- Every row of the output is in the block of the point `row / 5000`. -/
theorem covered (i : S1250000x10.Idx) :
    ∃ t : Fin cfg1.N, (cfg1.win 3).flush t = true ∧ i ∈ ((cfg1.win 3).blk t).view.set := by
  have hN : cfg1.N = 250 := N_1
  have hi0 : (i 0).val < 1250000 := (i 0).isLt
  have hi1 : (i 1).val < 10 := (i 1).isLt
  let t : Fin cfg1.N := ⟨(i 0).val / 5000, by rw [hN]; omega⟩
  refine ⟨t, flush1_3 t, ?_⟩
  show i ∈ ((View.whole main_v35).slice (win1_3.rect t)).set
  rw [View.set_slice_whole, Rect.mem_set_unit]
  have e0 : win1_3.index t (0 : Fin 2) = (i 0).val / 5000 := (idx_facts t).2.2.2.2.2.2.1
  have e1 : win1_3.index t (1 : Fin 2) = 0 := (idx_facts t).2.2.2.2.2.2.2
  intro ax
  match ax with
  | ⟨0, _⟩ => show win1_3.index t (0 : Fin 2) * 5000 ≤ (i 0).val ∧ (i 0).val < win1_3.index t (0 : Fin 2) * 5000 + 5000; omega
  | ⟨1, _⟩ => show win1_3.index t (1 : Fin 2) * 10 ≤ (i 1).val ∧ (i 1).val < win1_3.index t (1 : Fin 2) * 10 + 10; omega

/-- The output array after the launch. -/
theorem final (c : Dev nD) : (dat1 V c).arrAt 3 cfg1.N = edgeMlp20 (F := Ideal) (V c main_v34) (V c main_arg3) (V c main_arg4) :=
  (dat1 V c).arrAt_eq_of_cover 3 (edgeMlp20 (F := Ideal) (V c main_v34) (V c main_arg3) (V c main_arg4)) (fun t _ => flushed_eq V c t) (covered)

end Cert.KernelIdeal.Launch1

end
-- ==== Proof.Launch2.lean ====
/-
  Launch 2: the output array after the grid's write-backs is the 20-feature edge perceptron of the arrays the launch finds.

  The grid has 250 points; point `t` loads rows `5000 t … 5000 t + 4999` of the feature array and the whole weight
  matrices, and writes back rows `5000 t … 5000 t + 4999` of the output.  Entry `(r, q)` of what point `t` writes is the
  layer's entry function of row `r` of its feature block, which is row `5000 t + r` of the feature array — exactly the
  layer's entry `(5000 t + r, q)` on the whole array.  The 250 row blocks tile the output: row `n` is in block `n / 5000`.
-/
import proofs.«135176_j89558658056596_1_alg».proof.Proof.Gen.KernelIdeal.Frame
import proofs.«135176_j89558658056596_1_alg».proof.Proof.PayIdx
import proofs.«135176_j89558658056596_1_alg».proof.Proof.LayerIdx
import proofs.«135176_j89558658056596_1_alg».proof.Proof.Gen.ReferenceIdeal
import Idealize.ShloMosaic.Lib.Pipeline.Value
import Idealize.ShloMosaic.Lib.ValueIdx

set_option maxRecDepth 16384

noncomputable section

namespace Cert.KernelIdeal.Launch2

open Idealize.ShloMosaic Idealize.ShloMosaic.TcCoe Idealize.ShloMosaic.ValueIdx Idealize.SL.Sem
open Cert.KernelIdeal Cert.KernelIdeal.Gen Cert.Entries Cert.Model
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the output window are at row block `t`, the weights
    at the one block there is. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `r` of point `t`'s feature block is row `5000 t + r` of the feature array. -/
theorem read_rows (c : Dev nD) (t : Fin cfg2.N) (r : Fin 5000) (j : Fin 20) :
    iblk2 V c 0 t (ix2 r j)
      = (V c main_v54 : S1250000x20.Idx → EReal) (ix2 (⟨5000 * t.val + r.val, by have := t.isLt; have hN : cfg2.N = 250 := N_2; omega⟩ : Fin 1250000) j) := by
  show V c main_v54 (((cfg2.win 0).blk t).view.emb (ix2 r j)) = _
  refine congrArg _ (funext fun ax => Fin.ext ?_)
  match ax with
  | ⟨0, _⟩ => show win2_0.index t (0 : Fin 2) * 5000 + 1 * r.val = 5000 * t.val + r.val; rw [(idx_facts t).1]; omega
  | ⟨1, _⟩ => show win2_0.index t (1 : Fin 2) * 20 + 1 * j.val = j.val; rw [(idx_facts t).2.1]; omega

/-- The weight matrix is one block, the whole array. -/
theorem read_w (c : Dev nD) (t : Fin cfg2.N) (a : Fin 20) (b : Fin 10) :
    iblk2 V c 1 t (ix2 a b) = (V c main_arg5 : S20x10.Idx → EReal) (ix2 a b) := by
  show V c main_arg5 (((cfg2.win 1).blk t).view.emb (ix2 a b)) = _
  refine congrArg _ (funext fun ax => Fin.ext ?_)
  match ax with
  | ⟨0, _⟩ => show win2_1.index t (0 : Fin 2) * 20 + 1 * a.val = a.val; rw [(idx_facts t).2.2.1]; omega
  | ⟨1, _⟩ => show win2_1.index t (1 : Fin 2) * 10 + 1 * b.val = b.val; rw [(idx_facts t).2.2.2.1]; omega

/-- The second weight matrix is one block, the whole array. -/
theorem read_w1 (c : Dev nD) (t : Fin cfg2.N) (a b : Fin 10) :
    iblk2 V c 2 t (ix2 a b) = (V c main_arg6 : S10x10.Idx → EReal) (ix2 a b) := by
  show V c main_arg6 (((cfg2.win 2).blk t).view.emb (ix2 a b)) = _
  refine congrArg _ (funext fun ax => Fin.ext ?_)
  match ax with
  | ⟨0, _⟩ => show win2_2.index t (0 : Fin 2) * 10 + 1 * a.val = a.val; rw [(idx_facts t).2.2.2.2.1]; omega
  | ⟨1, _⟩ => show win2_2.index t (1 : Fin 2) * 10 + 1 * b.val = b.val; rw [(idx_facts t).2.2.2.2.2.1]; omega

/-- What point `t` writes back is block `t` of the layer's output on the whole arrays. -/
theorem flushed_eq (c : Dev nD) (t : Fin cfg2.N) :
    (dat2 V c).flushed 3 t = ((cfg2.win 3).blk t).view.read (Elt Ideal) (edgeMlp20 (F := Ideal) (V c main_v54) (V c main_arg5) (V c main_arg6)) := by
  show (cfg2.win 3).cut (grid2.coords t) ((dat2 V c).after 3 t) = _
  rw [after2_3]
  unfold out2_3
  rw [View.canon_unit_zero hz]
  simp only [View.ld_unit_zero (S := S5000x20) hz, View.ld_unit_zero (S := S20x10) hz, View.ld_unit_zero (S := S10x10) hz]
  funext y
  obtain ⟨r, q, rfl⟩ : ∃ (r : Fin 5000) (q : Fin 10), y = ix2 r q := ⟨y 0, y 1, eq_ix2 y⟩
  have hN : cfg2.N = 250 := N_2
  have ht : t.val < 250 := hN ▸ t.isLt
  have he : ((cfg2.win 3).blk t).view.emb (ix2 r q)
      = ix2 (⟨5000 * t.val + r.val, by omega⟩ : Fin 1250000) q := by
    funext ax; apply Fin.ext
    match ax with
    | ⟨0, _⟩ => show win2_3.index t (0 : Fin 2) * 5000 + 1 * r.val = 5000 * t.val + r.val; rw [(idx_facts t).2.2.2.2.2.2.1]; omega
    | ⟨1, _⟩ => show win2_3.index t (1 : Fin 2) * 10 + 1 * q.val = q.val; rw [(idx_facts t).2.2.2.2.2.2.2]; omega
  show k2_pay1 (iblk2 V c 0 t) (iblk2 V c 1 t) (iblk2 V c 2 t) (ix2 r q)
      = (edgeMlp20 (F := Ideal) (V c main_v54) (V c main_arg5) (V c main_arg6)) (((cfg2.win 3).blk t).view.emb (ix2 r q))
  rw [he, Cert.Model.edgeMlp20_apply]
  refine (Cert.KernelIdeal.PayIdx.pay2_apply (iblk2 V c 0 t) (iblk2 V c 1 t) (iblk2 V c 2 t) r q).trans ?_
  simp only [read_rows V c t, read_w V c t, read_w1 V c t]

/-- Every row of the output is in the block of the point `row / 5000`. -/
theorem covered (i : S1250000x10.Idx) :
    ∃ t : Fin cfg2.N, (cfg2.win 3).flush t = true ∧ i ∈ ((cfg2.win 3).blk t).view.set := by
  have hN : cfg2.N = 250 := N_2
  have hi0 : (i 0).val < 1250000 := (i 0).isLt
  have hi1 : (i 1).val < 10 := (i 1).isLt
  let t : Fin cfg2.N := ⟨(i 0).val / 5000, by rw [hN]; omega⟩
  refine ⟨t, flush2_3 t, ?_⟩
  show i ∈ ((View.whole main_v55).slice (win2_3.rect t)).set
  rw [View.set_slice_whole, Rect.mem_set_unit]
  have e0 : win2_3.index t (0 : Fin 2) = (i 0).val / 5000 := (idx_facts t).2.2.2.2.2.2.1
  have e1 : win2_3.index t (1 : Fin 2) = 0 := (idx_facts t).2.2.2.2.2.2.2
  intro ax
  match ax with
  | ⟨0, _⟩ => show win2_3.index t (0 : Fin 2) * 5000 ≤ (i 0).val ∧ (i 0).val < win2_3.index t (0 : Fin 2) * 5000 + 5000; omega
  | ⟨1, _⟩ => show win2_3.index t (1 : Fin 2) * 10 ≤ (i 1).val ∧ (i 1).val < win2_3.index t (1 : Fin 2) * 10 + 10; omega

/-- The output array after the launch. -/
theorem final (c : Dev nD) : (dat2 V c).arrAt 3 cfg2.N = edgeMlp20 (F := Ideal) (V c main_v54) (V c main_arg5) (V c main_arg6) :=
  (dat2 V c).arrAt_eq_of_cover 3 (edgeMlp20 (F := Ideal) (V c main_v54) (V c main_arg5) (V c main_arg6)) (fun t _ => flushed_eq V c t) (covered)

end Cert.KernelIdeal.Launch2

end
-- ==== Proof.Launch3.lean ====
/-
  Launch 3: the output array after the grid's write-backs is the first dense layer of the arrays the launch finds.

  The grid has 20 points; point `t` loads rows `5000 t … 5000 t + 4999` of the feature array and the whole weight
  matrix, and writes back rows `5000 t … 5000 t + 4999` of the output.  Entry `(r, q)` of what point `t` writes is the
  layer's entry function of row `r` of its feature block, which is row `5000 t + r` of the feature array — exactly the
  layer's entry `(5000 t + r, q)` on the whole array.  The 20 row blocks tile the output: row `n` is in block `n / 5000`.
-/
import proofs.«135176_j89558658056596_1_alg».proof.Proof.Gen.KernelIdeal.Frame
import proofs.«135176_j89558658056596_1_alg».proof.Proof.PayIdx
import proofs.«135176_j89558658056596_1_alg».proof.Proof.LayerIdx
import proofs.«135176_j89558658056596_1_alg».proof.Proof.Gen.ReferenceIdeal
import Idealize.ShloMosaic.Lib.Pipeline.Value
import Idealize.ShloMosaic.Lib.ValueIdx

set_option maxRecDepth 16384

noncomputable section

namespace Cert.KernelIdeal.Launch3

open Idealize.ShloMosaic Idealize.ShloMosaic.TcCoe Idealize.ShloMosaic.ValueIdx Idealize.SL.Sem
open Cert.KernelIdeal Cert.KernelIdeal.Gen Cert.Entries Cert.Model
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the output window are at row block `t`, the weights
    at the one block there is. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `r` of point `t`'s feature block is row `5000 t + r` of the feature array. -/
theorem read_rows (c : Dev nD) (t : Fin cfg3.N) (r : Fin 5000) (j : Fin 10) :
    iblk3 V c 0 t (ix2 r j)
      = (V c main_v59 : S100000x10.Idx → EReal) (ix2 (⟨5000 * t.val + r.val, by have := t.isLt; have hN : cfg3.N = 20 := N_3; omega⟩ : Fin 100000) j) := by
  show V c main_v59 (((cfg3.win 0).blk t).view.emb (ix2 r j)) = _
  refine congrArg _ (funext fun ax => Fin.ext ?_)
  match ax with
  | ⟨0, _⟩ => show win3_0.index t (0 : Fin 2) * 5000 + 1 * r.val = 5000 * t.val + r.val; rw [(idx_facts t).1]; omega
  | ⟨1, _⟩ => show win3_0.index t (1 : Fin 2) * 10 + 1 * j.val = j.val; rw [(idx_facts t).2.1]; omega

/-- The weight matrix is one block, the whole array. -/
theorem read_w (c : Dev nD) (t : Fin cfg3.N) (a : Fin 10) (b : Fin 64) :
    iblk3 V c 1 t (ix2 a b) = (V c main_arg7 : S10x64.Idx → EReal) (ix2 a b) := by
  show V c main_arg7 (((cfg3.win 1).blk t).view.emb (ix2 a b)) = _
  refine congrArg _ (funext fun ax => Fin.ext ?_)
  match ax with
  | ⟨0, _⟩ => show win3_1.index t (0 : Fin 2) * 10 + 1 * a.val = a.val; rw [(idx_facts t).2.2.1]; omega
  | ⟨1, _⟩ => show win3_1.index t (1 : Fin 2) * 64 + 1 * b.val = b.val; rw [(idx_facts t).2.2.2.1]; omega

/-- What point `t` writes back is block `t` of the layer's output on the whole arrays. -/
theorem flushed_eq (c : Dev nD) (t : Fin cfg3.N) :
    (dat3 V c).flushed 2 t = ((cfg3.win 2).blk t).view.read (Elt Ideal) (dense10 (F := Ideal) (V c main_v59) (V c main_arg7)) := by
  show (cfg3.win 2).cut (grid3.coords t) ((dat3 V c).after 2 t) = _
  rw [after3_2]
  unfold out3_2
  rw [View.canon_unit_zero hz]
  simp only [View.ld_unit_zero (S := S5000x10) hz, View.ld_unit_zero (S := S10x64) hz]
  funext y
  obtain ⟨r, q, rfl⟩ : ∃ (r : Fin 5000) (q : Fin 64), y = ix2 r q := ⟨y 0, y 1, eq_ix2 y⟩
  have hN : cfg3.N = 20 := N_3
  have ht : t.val < 20 := hN ▸ t.isLt
  have he : ((cfg3.win 2).blk t).view.emb (ix2 r q)
      = ix2 (⟨5000 * t.val + r.val, by omega⟩ : Fin 100000) q := by
    funext ax; apply Fin.ext
    match ax with
    | ⟨0, _⟩ => show win3_2.index t (0 : Fin 2) * 5000 + 1 * r.val = 5000 * t.val + r.val; rw [(idx_facts t).2.2.2.2.1]; omega
    | ⟨1, _⟩ => show win3_2.index t (1 : Fin 2) * 64 + 1 * q.val = q.val; rw [(idx_facts t).2.2.2.2.2]; omega
  show k3_pay1 (iblk3 V c 0 t) (iblk3 V c 1 t) (ix2 r q)
      = (dense10 (F := Ideal) (V c main_v59) (V c main_arg7)) (((cfg3.win 2).blk t).view.emb (ix2 r q))
  rw [he, Cert.Model.dense10_apply]
  refine (Cert.KernelIdeal.PayIdx.pay3_apply (iblk3 V c 0 t) (iblk3 V c 1 t) r q).trans ?_
  simp only [read_rows V c t, read_w V c t]

/-- Every row of the output is in the block of the point `row / 5000`. -/
theorem covered (i : S100000x64.Idx) :
    ∃ t : Fin cfg3.N, (cfg3.win 2).flush t = true ∧ i ∈ ((cfg3.win 2).blk t).view.set := by
  have hN : cfg3.N = 20 := N_3
  have hi0 : (i 0).val < 100000 := (i 0).isLt
  have hi1 : (i 1).val < 64 := (i 1).isLt
  let t : Fin cfg3.N := ⟨(i 0).val / 5000, by rw [hN]; omega⟩
  refine ⟨t, flush3_2 t, ?_⟩
  show i ∈ ((View.whole main_v60).slice (win3_2.rect t)).set
  rw [View.set_slice_whole, Rect.mem_set_unit]
  have e0 : win3_2.index t (0 : Fin 2) = (i 0).val / 5000 := (idx_facts t).2.2.2.2.1
  have e1 : win3_2.index t (1 : Fin 2) = 0 := (idx_facts t).2.2.2.2.2
  intro ax
  match ax with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the launch. -/
theorem final (c : Dev nD) : (dat3 V c).arrAt 2 cfg3.N = dense10 (F := Ideal) (V c main_v59) (V c main_arg7) :=
  (dat3 V c).arrAt_eq_of_cover 2 (dense10 (F := Ideal) (V c main_v59) (V c main_arg7)) (fun t _ => flushed_eq V c t) (covered)

end Cert.KernelIdeal.Launch3

end
-- ==== Proof.Launch4.lean ====
/-
  Launch 4: the output array after the grid's write-backs is the second dense layer of the arrays the launch finds.

  The grid has 20 points; point `t` loads rows `5000 t … 5000 t + 4999` of the feature array and the whole weight
  matrix, and writes back rows `5000 t … 5000 t + 4999` of the output.  Entry `(r, q)` of what point `t` writes is the
  layer's entry function of row `r` of its feature block, which is row `5000 t + r` of the feature array — exactly the
  layer's entry `(5000 t + r, q)` on the whole array.  The 20 row blocks tile the output: row `n` is in block `n / 5000`.
-/
import proofs.«135176_j89558658056596_1_alg».proof.Proof.Gen.KernelIdeal.Frame
import proofs.«135176_j89558658056596_1_alg».proof.Proof.PayIdx
import proofs.«135176_j89558658056596_1_alg».proof.Proof.LayerIdx
import proofs.«135176_j89558658056596_1_alg».proof.Proof.Gen.ReferenceIdeal
import Idealize.ShloMosaic.Lib.Pipeline.Value
import Idealize.ShloMosaic.Lib.ValueIdx

set_option maxRecDepth 16384

noncomputable section

namespace Cert.KernelIdeal.Launch4

open Idealize.ShloMosaic Idealize.ShloMosaic.TcCoe Idealize.ShloMosaic.ValueIdx Idealize.SL.Sem
open Cert.KernelIdeal Cert.KernelIdeal.Gen Cert.Entries Cert.Model
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature window and the output window are at row block `t`, the weights
    at the one block there is. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `r` of point `t`'s feature block is row `5000 t + r` of the feature array. -/
theorem read_rows (c : Dev nD) (t : Fin cfg4.N) (r : Fin 5000) (j : Fin 64) :
    iblk4 V c 0 t (ix2 r j)
      = (V c main_v60 : S100000x64.Idx → EReal) (ix2 (⟨5000 * t.val + r.val, by have := t.isLt; have hN : cfg4.N = 20 := N_4; omega⟩ : Fin 100000) j) := by
  show V c main_v60 (((cfg4.win 0).blk t).view.emb (ix2 r j)) = _
  refine congrArg _ (funext fun ax => Fin.ext ?_)
  match ax with
  | ⟨0, _⟩ => show win4_0.index t (0 : Fin 2) * 5000 + 1 * r.val = 5000 * t.val + r.val; rw [(idx_facts t).1]; omega
  | ⟨1, _⟩ => show win4_0.index t (1 : Fin 2) * 64 + 1 * j.val = j.val; rw [(idx_facts t).2.1]; omega

/-- The weight matrix is one block, the whole array. -/
theorem read_w (c : Dev nD) (t : Fin cfg4.N) (a : Fin 64) (b : Fin 64) :
    iblk4 V c 1 t (ix2 a b) = (V c main_arg8 : S64x64.Idx → EReal) (ix2 a b) := by
  show V c main_arg8 (((cfg4.win 1).blk t).view.emb (ix2 a b)) = _
  refine congrArg _ (funext fun ax => Fin.ext ?_)
  match ax with
  | ⟨0, _⟩ => show win4_1.index t (0 : Fin 2) * 64 + 1 * a.val = a.val; rw [(idx_facts t).2.2.1]; omega
  | ⟨1, _⟩ => show win4_1.index t (1 : Fin 2) * 64 + 1 * b.val = b.val; rw [(idx_facts t).2.2.2.1]; omega

/-- What point `t` writes back is block `t` of the layer's output on the whole arrays. -/
theorem flushed_eq (c : Dev nD) (t : Fin cfg4.N) :
    (dat4 V c).flushed 2 t = ((cfg4.win 2).blk t).view.read (Elt Ideal) (dense64 (F := Ideal) (V c main_v60) (V c main_arg8)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  funext y
  obtain ⟨r, q, rfl⟩ : ∃ (r : Fin 5000) (q : Fin 64), y = ix2 r q := ⟨y 0, y 1, eq_ix2 y⟩
  have hN : cfg4.N = 20 := N_4
  have ht : t.val < 20 := hN ▸ t.isLt
  have he : ((cfg4.win 2).blk t).view.emb (ix2 r q)
      = ix2 (⟨5000 * t.val + r.val, by omega⟩ : Fin 100000) q := by
    funext ax; apply Fin.ext
    match ax with
    | ⟨0, _⟩ => show win4_2.index t (0 : Fin 2) * 5000 + 1 * r.val = 5000 * t.val + r.val; rw [(idx_facts t).2.2.2.2.1]; omega
    | ⟨1, _⟩ => show win4_2.index t (1 : Fin 2) * 64 + 1 * q.val = q.val; rw [(idx_facts t).2.2.2.2.2]; omega
  show k4_pay1 (iblk4 V c 0 t) (iblk4 V c 1 t) (ix2 r q)
      = (dense64 (F := Ideal) (V c main_v60) (V c main_arg8)) (((cfg4.win 2).blk t).view.emb (ix2 r q))
  rw [he, Cert.Model.dense64_apply]
  refine (Cert.KernelIdeal.PayIdx.pay4_apply (iblk4 V c 0 t) (iblk4 V c 1 t) r q).trans ?_
  simp only [read_rows V c t, read_w V c t]

/-- Every row of the output is in the block of the point `row / 5000`. -/
theorem covered (i : S100000x64.Idx) :
    ∃ t : Fin cfg4.N, (cfg4.win 2).flush t = true ∧ i ∈ ((cfg4.win 2).blk t).view.set := by
  have hN : cfg4.N = 20 := N_4
  have hi0 : (i 0).val < 100000 := (i 0).isLt
  have hi1 : (i 1).val < 64 := (i 1).isLt
  let t : Fin cfg4.N := ⟨(i 0).val / 5000, by rw [hN]; omega⟩
  refine ⟨t, flush4_2 t, ?_⟩
  show i ∈ ((View.whole main_v61).slice (win4_2.rect t)).set
  rw [View.set_slice_whole, Rect.mem_set_unit]
  have e0 : win4_2.index t (0 : Fin 2) = (i 0).val / 5000 := (idx_facts t).2.2.2.2.1
  have e1 : win4_2.index t (1 : Fin 2) = 0 := (idx_facts t).2.2.2.2.2
  intro ax
  match ax with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The output array after the launch. -/
theorem final (c : Dev nD) : (dat4 V c).arrAt 2 cfg4.N = dense64 (F := Ideal) (V c main_v60) (V c main_arg8) :=
  (dat4 V c).arrAt_eq_of_cover 2 (dense64 (F := Ideal) (V c main_v60) (V c main_arg8)) (fun t _ => flushed_eq V c t) (covered)

end Cert.KernelIdeal.Launch4

end
-- ==== Proof.Chain.lean ====
/-
  From the launch memory to the result, boundary by boundary.

  Each stretch of host operations is one function of the buffer contents before it (stated apart).  Each launch
  replaces its output array by its layer's function of the arrays it finds.  Since no segment writes an argument, every
  segment finds the arguments as launched, and the result buffer ends at the model's composition of the arguments.
-/
import proofs.«135176_j89558658056596_1_alg».proof.Proof.Walk
import proofs.«135176_j89558658056596_1_alg».proof.Proof.Stretches
import proofs.«135176_j89558658056596_1_alg».proof.Proof.Launch0
import proofs.«135176_j89558658056596_1_alg».proof.Proof.Launch1
import proofs.«135176_j89558658056596_1_alg».proof.Proof.Launch2
import proofs.«135176_j89558658056596_1_alg».proof.Proof.Launch3
import proofs.«135176_j89558658056596_1_alg».proof.Proof.Launch4
import proofs.«135176_j89558658056596_1_alg».proof.Proof.Model
import proofs.«135176_j89558658056596_1_alg».proof.Proof.Gen.ReferenceIdeal
import Idealize.ShloMosaic.Lib.StableHlo.Run

set_option maxRecDepth 16384

noncomputable section

namespace Cert.KernelIdeal.Chain

open Cert.KernelIdeal Cert.KernelIdeal.Gen Cert.Model
open Idealize.ShloMosaic Idealize.ShloMosaic.TcCoe Idealize.SL.Sem Idealize.ShloMosaic.StableHlo

/-! ## Boundary by boundary, over the extended reals -/

variable (m : (ℓ : Loc nD τ sig) → Buf (Elt Ideal) ℓ) (ρ : Dev nD → PrngReg)

/-- Launch 0 finds every edge's joined rows of the argument features. -/
theorem in0 (c : Dev nD) : V1 m ρ c main_v14 = edgeRows64 (F := Ideal) (m ((c : Thread nD τ).loc main_arg0)) (m ((c : Thread nD τ).loc main_arg9)) (m ((c : Thread nD τ).loc main_arg10)) :=
  stretch0 (W0 m ρ c)

/-- Launch 0 leaves the first layer's messages. -/
theorem out0 (c : Dev nD) : W2 m ρ c (Proc.devRef .tc main_v15) = edgeMlp128 (F := Ideal) (edgeRows64 (m ((c : Thread nD τ).loc main_arg0)) (m ((c : Thread nD τ).loc main_arg9)) (m ((c : Thread nD τ).loc main_arg10))) (m ((c : Thread nD τ).loc main_arg1)) (m ((c : Thread nD τ).loc main_arg2)) := by
  have h := Cert.KernelIdeal.Launch0.final (V1 m ρ) c
  rw [in0 m ρ c, show V1 m ρ c main_arg1 = (m ((c : Thread nD τ).loc main_arg1)) from Walk.W1_arg1 m ρ c,
    show V1 m ρ c main_arg2 = (m ((c : Thread nD τ).loc main_arg2)) from Walk.W1_arg2 m ρ c] at h
  exact (W2_arr m ρ c 3).trans h

/-- Launch 1 finds every edge's joined rows of the features after the first layer. -/
theorem in1 (c : Dev nD) : V5 m ρ c main_v34 = edgeRows10 (F := Ideal) (layer1 (m ((c : Thread nD τ).loc main_arg0)) (m ((c : Thread nD τ).loc main_arg1)) (m ((c : Thread nD τ).loc main_arg2)) (m ((c : Thread nD τ).loc main_arg9)) (m ((c : Thread nD τ).loc main_arg10))) (m ((c : Thread nD τ).loc main_arg9)) (m ((c : Thread nD τ).loc main_arg10)) := by
  refine (stretch1 (W2 m ρ c)).trans ?_
  rw [out0 m ρ c, Walk.W2_arg9 m ρ c, Walk.W2_arg10 m ρ c]
  rfl

/-- Launch 1 leaves the second layer's messages. -/
theorem out1 (c : Dev nD) : W6 m ρ c (Proc.devRef .tc main_v35) = edgeMlp20 (F := Ideal) (edgeRows10 (layer1 (m ((c : Thread nD τ).loc main_arg0)) (m ((c : Thread nD τ).loc main_arg1)) (m ((c : Thread nD τ).loc main_arg2)) (m ((c : Thread nD τ).loc main_arg9)) (m ((c : Thread nD τ).loc main_arg10))) (m ((c : Thread nD τ).loc main_arg9)) (m ((c : Thread nD τ).loc main_arg10))) (m ((c : Thread nD τ).loc main_arg3)) (m ((c : Thread nD τ).loc main_arg4)) := by
  have h := Cert.KernelIdeal.Launch1.final (V5 m ρ) c
  rw [in1 m ρ c, show V5 m ρ c main_arg3 = (m ((c : Thread nD τ).loc main_arg3)) from Walk.W5_arg3 m ρ c,
    show V5 m ρ c main_arg4 = (m ((c : Thread nD τ).loc main_arg4)) from Walk.W5_arg4 m ρ c] at h
  exact (W6_arr m ρ c 3).trans h

/-- Launch 2 finds every edge's joined rows of the features after the second layer. -/
theorem in2 (c : Dev nD) : V9 m ρ c main_v54 = edgeRows10 (F := Ideal) (layer2 (layer1 (m ((c : Thread nD τ).loc main_arg0)) (m ((c : Thread nD τ).loc main_arg1)) (m ((c : Thread nD τ).loc main_arg2)) (m ((c : Thread nD τ).loc main_arg9)) (m ((c : Thread nD τ).loc main_arg10))) (m ((c : Thread nD τ).loc main_arg3)) (m ((c : Thread nD τ).loc main_arg4)) (m ((c : Thread nD τ).loc main_arg9)) (m ((c : Thread nD τ).loc main_arg10))) (m ((c : Thread nD τ).loc main_arg9)) (m ((c : Thread nD τ).loc main_arg10)) := by
  refine (stretch2 (W6 m ρ c)).trans ?_
  rw [out1 m ρ c, Walk.W6_arg9 m ρ c, Walk.W6_arg10 m ρ c]
  rfl

/-- Launch 2 leaves the third layer's messages. -/
theorem out2 (c : Dev nD) : W10 m ρ c (Proc.devRef .tc main_v55) = edgeMlp20 (F := Ideal) (edgeRows10 (layer2 (layer1 (m ((c : Thread nD τ).loc main_arg0)) (m ((c : Thread nD τ).loc main_arg1)) (m ((c : Thread nD τ).loc main_arg2)) (m ((c : Thread nD τ).loc main_arg9)) (m ((c : Thread nD τ).loc main_arg10))) (m ((c : Thread nD τ).loc main_arg3)) (m ((c : Thread nD τ).loc main_arg4)) (m ((c : Thread nD τ).loc main_arg9)) (m ((c : Thread nD τ).loc main_arg10))) (m ((c : Thread nD τ).loc main_arg9)) (m ((c : Thread nD τ).loc main_arg10))) (m ((c : Thread nD τ).loc main_arg5)) (m ((c : Thread nD τ).loc main_arg6)) := by
  have h := Cert.KernelIdeal.Launch2.final (V9 m ρ) c
  rw [in2 m ρ c, show V9 m ρ c main_arg5 = (m ((c : Thread nD τ).loc main_arg5)) from Walk.W9_arg5 m ρ c,
    show V9 m ρ c main_arg6 = (m ((c : Thread nD τ).loc main_arg6)) from Walk.W9_arg6 m ρ c] at h
  exact (W10_arr m ρ c 3).trans h

/-- Launch 3 finds the features after the third layer. -/
theorem in3 (c : Dev nD) : V12 m ρ c main_v59 = (layer2 (F := Ideal) (layer2 (layer1 (m ((c : Thread nD τ).loc main_arg0)) (m ((c : Thread nD τ).loc main_arg1)) (m ((c : Thread nD τ).loc main_arg2)) (m ((c : Thread nD τ).loc main_arg9)) (m ((c : Thread nD τ).loc main_arg10))) (m ((c : Thread nD τ).loc main_arg3)) (m ((c : Thread nD τ).loc main_arg4)) (m ((c : Thread nD τ).loc main_arg9)) (m ((c : Thread nD τ).loc main_arg10))) (m ((c : Thread nD τ).loc main_arg5)) (m ((c : Thread nD τ).loc main_arg6)) (m ((c : Thread nD τ).loc main_arg9)) (m ((c : Thread nD τ).loc main_arg10))) := by
  refine (stretch3 (W10 m ρ c)).trans ?_
  rw [out2 m ρ c, Walk.W10_arg10 m ρ c]
  rfl

/-- Launch 3 leaves the first dense layer's output. -/
theorem out3 (c : Dev nD) : W13 m ρ c (Proc.devRef .tc main_v60) = dense10 (F := Ideal) (layer2 (layer2 (layer1 (m ((c : Thread nD τ).loc main_arg0)) (m ((c : Thread nD τ).loc main_arg1)) (m ((c : Thread nD τ).loc main_arg2)) (m ((c : Thread nD τ).loc main_arg9)) (m ((c : Thread nD τ).loc main_arg10))) (m ((c : Thread nD τ).loc main_arg3)) (m ((c : Thread nD τ).loc main_arg4)) (m ((c : Thread nD τ).loc main_arg9)) (m ((c : Thread nD τ).loc main_arg10))) (m ((c : Thread nD τ).loc main_arg5)) (m ((c : Thread nD τ).loc main_arg6)) (m ((c : Thread nD τ).loc main_arg9)) (m ((c : Thread nD τ).loc main_arg10))) (m ((c : Thread nD τ).loc main_arg7)) := by
  have h := Cert.KernelIdeal.Launch3.final (V12 m ρ) c
  rw [in3 m ρ c, show V12 m ρ c main_arg7 = (m ((c : Thread nD τ).loc main_arg7)) from Walk.W12_arg7 m ρ c] at h
  exact (W13_arr m ρ c 2).trans h

/-- The result buffer ends at the model's composition of the arguments. -/
theorem result (c : Dev nD) : W14 m ρ c (Proc.devRef .tc main_v61)
    = model (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h := Cert.KernelIdeal.Launch4.final (V13 m ρ) c
  rw [show V13 m ρ c main_v60 = _ from out3 m ρ c, show V13 m ρ c main_arg8 = (m ((c : Thread nD τ).loc main_arg8)) from Walk.W13_arg8 m ρ c] at h
  exact (W14_arr m ρ c 2).trans h

end Cert.KernelIdeal.Chain

end
-- ==== Proof.RefModel.lean ====
/-
  The reference program's result is the model's composition of its arguments: its host operations, in program order,
  are the model's functions applied one inside the other — the same gathers, joins, products, clamps, divisions and
  scatter-additions, spelt once.
-/
import proofs.«135176_j89558658056596_1_alg».proof.Proof.Gen.ReferenceIdeal.Run
import proofs.«135176_j89558658056596_1_alg».proof.Proof.Model

set_option maxRecDepth 16384

noncomputable section

namespace Cert.ReferenceIdeal.RefModel

open Cert.ReferenceIdeal Cert.Model
open Idealize.ShloMosaic Idealize.ShloMosaic.TcCoe Idealize.SL.Sem

/-- The reference run's result term is the model of the reference's arguments, over any float instance (the
    operations stay closed: the two sides are one term). -/
theorem res_is_model {F : FTy → Type} [FloatOps F] (m : (ℓ : Loc nD τ sig) → Buf (Elt F) ℓ) (c : Dev nD) :
    Cert.ReferenceIdeal.Value.res_main_v78 (F := F) m c
      = model (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v78
  rfl

end Cert.ReferenceIdeal.RefModel

end
-- ==== Proof.lean ====
/-
  A three-layer graph network followed by two dense layers: the kernel program against its reference, over the
  extended reals.

  Both programs gather, for every edge, the feature rows of its target and source nodes, join them, pass the joined
  row through a two-layer perceptron (product, clamp at zero, product, clamp at zero, scaling), add the messages up
  at the edges' target nodes and clamp; they do this three times and finish with two dense layers.  The gathers, the
  joins, the scatter-additions and the clamps on node tables are the same host operations in both programs.  The
  programs differ in the perceptrons and the dense layers: the kernel program computes them in launches over row blocks
  of 5000 edges (or nodes), with zero-accumulated matrix products whose operands pass through bfloat16, and scales a
  message by the constant named one tenth; the reference computes them on the whole arrays and divides by ten.  Over
  the extended reals the change of float format is the identity, a row block's entries depend on the block's own rows
  alone, and dividing by ten is multiplying by one tenth on every extended real — so every launch leaves exactly the
  reference's layer function of the arrays it finds, and both programs end at one composition of the arguments.  No
  step distributes a product over a sum or cancels, so finiteness of the inputs is never used.

  The three frames are the programs' runs with the result dropped; the ledger's three entries are the named constant's
  statement, once per perceptron launch.
-/
import proofs.«135176_j89558658056596_1_alg».proof.Defs
import proofs.«135176_j89558658056596_1_alg».proof.Proof.Gen.Kernel
import proofs.«135176_j89558658056596_1_alg».proof.Proof.Gen.Kernel.Skeleton
import proofs.«135176_j89558658056596_1_alg».proof.Proof.Gen.Kernel.Launch
import proofs.«135176_j89558658056596_1_alg».proof.Proof.Gen.Kernel.Points
import proofs.«135176_j89558658056596_1_alg».proof.Proof.Gen.Kernel.Frame
import proofs.«135176_j89558658056596_1_alg».proof.Proof.Gen.KernelIdeal
import proofs.«135176_j89558658056596_1_alg».proof.Proof.Gen.KernelIdeal.Skeleton
import proofs.«135176_j89558658056596_1_alg».proof.Proof.Gen.KernelIdeal.Launch
import proofs.«135176_j89558658056596_1_alg».proof.Proof.Gen.KernelIdeal.Points
import proofs.«135176_j89558658056596_1_alg».proof.Proof.Gen.KernelIdeal.Frame
import proofs.«135176_j89558658056596_1_alg».proof.Proof.Gen.ReferenceIdeal
import proofs.«135176_j89558658056596_1_alg».proof.Proof.Gen.ReferenceIdeal.Run
import proofs.«135176_j89558658056596_1_alg».proof.Proof.Gen.Pre_finite_inputs
import proofs.«135176_j89558658056596_1_alg».proof.Proof.RunValued
import proofs.«135176_j89558658056596_1_alg».proof.Proof.Chain
import proofs.«135176_j89558658056596_1_alg».proof.Proof.RefModel
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The table of named constants gives `inv_10` the rational one tenth, which is what each of the three perceptron
    launches' scaling constant then denotes. -/
theorem named_tenth :
    IdealRules.named_const.Statement Cert.KernelIdeal.κ "inv_10" .f32 0x3DCCCCCD#32 ((1 / 10 : ℝ) : EReal) :=
  IdealRules.named_const.statement Cert.KernelIdeal.κ "inv_10" .f32 0x3DCCCCCD#32 ((1 / 10 : ℝ) : EReal) rfl

theorem preserves : Cert.preserves_Kernel_KernelIdeal := ⟨named_tenth, named_tenth, named_tenth⟩

/-- From memories agreeing on the arguments both idealized programs end with the result at the model's composition
    of the arguments, and with the arguments as launched. -/
theorem algebraic : Cert.algebraic_KernelIdeal_ReferenceIdeal := by
  intro m ρ m' ρ' _ hagree
  refine ⟨fun c => Cert.Model.model (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.RunValue.run_end m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.RefModel.res_is_model m' c, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
